-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S16 .f32) (main_v33 : IVec S_ 1) : IVec S_ 1 :=
  let main_v34 : FVec F S16 .f32 := Host.absf main_arg9
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x16 .f32) (main_arg9 : FVec F S16 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x16 .f32 := Host.absf main_arg8
  let main_cst_10 : FVec F S_ .f32 := constant S_ .f32 0x7F800000#32
  let main_v30 : FVec F S128x16 .f32 := broadcastInDim S128x16 ![] bcast_S_S128x16 main_cst_10
  let main_v31 : IVec S128x16 1 := cmpf .olt main_v29 main_v30
  let main_c_11 : IVec S_ 1 := constantI S_ 1 1#1
  let main_v32 : IVec S_ 1 := (fun x v => Host.reduce IntOp.andi x v reducesTo_S128x16_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S2x800000 32) (main_arg2 : IVec S50000 32) (main_arg3 : FVec F S3x128x128 .f32) (main_arg4 : FVec F S3x128 .f32) (main_arg5 : FVec F S3x128x128 .f32) (main_arg6 : FVec F S128x128 .f32) (main_arg7 : FVec F S128 .f32) (main_arg8 : FVec F S128x16 .f32) (main_arg9 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S1x128x128 : Shape := ⟨3, ![1, 128, 128]⟩
abbrev S5000x128 : Shape := ⟨2, ![5000, 128]⟩
abbrev S50000x1 : Shape := ⟨2, ![50000, 1]⟩
abbrev S128x1 : Shape := ⟨2, ![128, 1]⟩
abbrev S1x16 : Shape := ⟨2, ![1, 16]⟩

abbrev nBuf : Space → Nat
  | .hbm => 96
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S128x128, .f32⟩
  | .hbm, ⟨7, _⟩ => ⟨S128, .f32⟩
  | .hbm, ⟨8, _⟩ => ⟨S128x16, .f32⟩
  | .hbm, ⟨9, _⟩ => ⟨S16, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S1x128, .f32⟩
  | .hbm, ⟨28, _⟩ => ⟨S128, .f32⟩
  | .hbm, ⟨29, _⟩ => ⟨S1x128, .f32⟩
  | .hbm, ⟨30, _⟩ => ⟨S1x128x128, .f32⟩
  | .hbm, ⟨31, _⟩ => ⟨S128x128, .f32⟩
  | .hbm, ⟨32, _⟩ => ⟨S1x128x128, .f32⟩
  | .hbm, ⟨33, _⟩ => ⟨S128x128, .f32⟩
  | .hbm, ⟨34, _⟩ => ⟨S50000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S1x128, .f32⟩
  | .hbm, ⟨49, _⟩ => ⟨S128, .f32⟩
  | .hbm, ⟨50, _⟩ => ⟨S1x128, .f32⟩
  | .hbm, ⟨51, _⟩ => ⟨S1x128x128, .f32⟩
  | .hbm, ⟨52, _⟩ => ⟨S128x128, .f32⟩
  | .hbm, ⟨53, _⟩ => ⟨S1x128x128, .f32⟩
  | .hbm, ⟨54, _⟩ => ⟨S128x128, .f32⟩
  | .hbm, ⟨55, _⟩ => ⟨S50000x128, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S1x128, .f32⟩
  | .hbm, ⟨70, _⟩ => ⟨S128, .f32⟩
  | .hbm, ⟨71, _⟩ => ⟨S1x128, .f32⟩
  | .hbm, ⟨72, _⟩ => ⟨S1x128x128, .f32⟩
  | .hbm, ⟨73, _⟩ => ⟨S128x128, .f32⟩
  | .hbm, ⟨74, _⟩ => ⟨S1x128x128, .f32⟩
  | .hbm, ⟨75, _⟩ => ⟨S128x128, .f32⟩
  | .hbm, ⟨76, _⟩ => ⟨S50000x128, .f32⟩
  | .hbm, ⟨77, _⟩ => ⟨S_, .f32⟩
  | .hbm, ⟨78, _⟩ => ⟨S128x128, .f32⟩
  | .hbm, ⟨79, _⟩ => ⟨S50000x1, .i32⟩
  | .hbm, ⟨80, _⟩ => ⟨S128x128, .f32⟩
  | .hbm, ⟨81, _⟩ => ⟨S_, .f32⟩
  | .hbm, ⟨82, _⟩ => ⟨S50000, .f32⟩
  | .hbm, ⟨83, _⟩ => ⟨S_, .f32⟩
  | .hbm, ⟨84, _⟩ => ⟨S128, .f32⟩
  | .hbm, ⟨85, _⟩ => ⟨S50000x1, .i32⟩
  | .hbm, ⟨86, _⟩ => ⟨S128, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S128x1, .f32⟩
  | .hbm, ⟨91, _⟩ => ⟨S128x128, .f32⟩
  | .hbm, ⟨92, _⟩ => ⟨S128x128, .f32⟩
  | .hbm, ⟨93, _⟩ => ⟨S1x128, .f32⟩
  | .hbm, ⟨94, _⟩ => ⟨S1x16, .f32⟩
  | .hbm, ⟨95, _⟩ => ⟨S128x16, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S128x128, .f32⟩
  | .local _ .vmem, ⟨28, _⟩ => ⟨S128x128, .f32⟩
  | .local _ .vmem, ⟨29, _⟩ => ⟨S1x128, .f32⟩
  | .local _ .vmem, ⟨30, _⟩ => ⟨S128x16, .f32⟩
  | .local _ .vmem, ⟨31, _⟩ => ⟨S1x16, .f32⟩
  | .local _ .vmem, ⟨32, _⟩ => ⟨S128x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_1 : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_4 : Ref sig .tc := ⟨.hbm, 56, rfl⟩
abbrev main_v40 : Ref sig .tc := ⟨.hbm, 57, rfl⟩
abbrev main_v41 : Ref sig .tc := ⟨.hbm, 58, rfl⟩
abbrev main_c_5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_7 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_8 : Ref sig .tc := ⟨.hbm, 81, rfl⟩
abbrev main_v61 : Ref sig .tc := ⟨.hbm, 82, rfl⟩
abbrev main_cst_9 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_10 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S128x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  shapeCasts_S128_S1x128 : S128.ShapeCasts S1x128
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128_S1x128_1_0 : S3x128.Slices ![1, 0] S1x128
  slices_S3x128x128_S1x128x128_1_0_0 : S3x128x128.Slices ![1, 0, 0] S1x128x128
  slices_S3x128_S1x128_2_0 : S3x128.Slices ![2, 0] S1x128
  slices_S3x128x128_S1x128x128_2_0_0 : S3x128x128.Slices ![2, 0, 0] S1x128x128
  bcast_S_S128x128 : S_.BroadcastsInDim S128x128 (![] : Fin 0 → Fin S128x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  shapeCasts_S16_S1x16 : S16.ShapeCasts S1x16
  broadcasts_S1x128_S128x128 : S1x128.Broadcasts S128x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S128x16 : S1x16.Broadcasts S128x16
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x128_S128x128_1_0_0_1_n_n_wf : DotDims.WF S128x128 S128x128 S128x128 [1] [0] [0] [1] [] []
  dot_S128x128_S128x16_S128x16_1_0_0_1_n_n_wf : DotDims.WF S128x128 S128x16 S128x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S128x128.size a ≤ S128x128.size a
  hwx3_0 : ∀ i : grid3.Coords, EltTy.bits .f32 = 32 ∨ (Rect.block (s := S128x128) S128x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x16.size a ≤ S128x16.size a
  hwx3_3 : ∀ i : grid3.Coords, EltTy.bits .f32 = 32 ∨ (Rect.block (s := S128x16) S128x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x16.size a ≤ S1x16.size a
  hwx3_4 : ∀ i : grid3.Coords, EltTy.bits .f32 = 32 ∨ (Rect.block (s := S1x16) S1x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x16.size a ≤ S128x16.size a
  hwx3_5 : ∀ i : grid3.Coords, EltTy.bits .f32 = 32 ∨ (Rect.block (s := S128x16) S128x16.size (cc3_transform_5 i) (hinb3_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x16_S128x16_1_0_0_1_n_n : DotDims S128x128 S128x16 S128x16 where
  lhsContracting := [1]
  rhsContracting := [0]
  lhsNonContracting := [0]
  rhsNonContracting := [1]
  lhsBatch := []
  rhsBatch := []
  wf := dot_S128x128_S128x16_S128x16_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v69) S128x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S128x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S1x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S128x16.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S1x128 : Shape := ⟨2, ![1, 128]⟩
abbrev S50000x1 : Shape := ⟨2, ![50000, 1]⟩
abbrev S128x1 : Shape := ⟨2, ![128, 1]⟩
abbrev S1x16 : Shape := ⟨2, ![1, 16]⟩

abbrev nBuf : Space → Nat
  | .hbm => 122
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S128x128, .f32⟩
  | .hbm, ⟨7, _⟩ => ⟨S128, .f32⟩
  | .hbm, ⟨8, _⟩ => ⟨S128x16, .f32⟩
  | .hbm, ⟨9, _⟩ => ⟨S16, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S1x128x128, .f32⟩
  | .hbm, ⟨28, _⟩ => ⟨S128x128, .f32⟩
  | .hbm, ⟨29, _⟩ => ⟨S50000x128, .f32⟩
  | .hbm, ⟨30, _⟩ => ⟨S1x128, .f32⟩
  | .hbm, ⟨31, _⟩ => ⟨S128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S1x128x128, .f32⟩
  | .hbm, ⟨36, _⟩ => ⟨S128x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S50000x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S1x128x128, .f32⟩
  | .hbm, ⟨56, _⟩ => ⟨S128x128, .f32⟩
  | .hbm, ⟨57, _⟩ => ⟨S50000x128, .f32⟩
  | .hbm, ⟨58, _⟩ => ⟨S1x128, .f32⟩
  | .hbm, ⟨59, _⟩ => ⟨S128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S1x128x128, .f32⟩
  | .hbm, ⟨64, _⟩ => ⟨S128x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S1x128x128, .f32⟩
  | .hbm, ⟨84, _⟩ => ⟨S128x128, .f32⟩
  | .hbm, ⟨85, _⟩ => ⟨S50000x128, .f32⟩
  | .hbm, ⟨86, _⟩ => ⟨S1x128, .f32⟩
  | .hbm, ⟨87, _⟩ => ⟨S128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S1x128x128, .f32⟩
  | .hbm, ⟨92, _⟩ => ⟨S128x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S128x128, .f32⟩
  | .hbm, ⟨100, _⟩ => ⟨S50000x1, .i32⟩
  | .hbm, ⟨101, _⟩ => ⟨S128x128, .f32⟩
  | .hbm, ⟨102, _⟩ => ⟨S_, .f32⟩
  | .hbm, ⟨103, _⟩ => ⟨S50000, .f32⟩
  | .hbm, ⟨104, _⟩ => ⟨S_, .f32⟩
  | .hbm, ⟨105, _⟩ => ⟨S128, .f32⟩
  | .hbm, ⟨106, _⟩ => ⟨S50000x1, .i32⟩
  | .hbm, ⟨107, _⟩ => ⟨S128, .f32⟩
  | .hbm, ⟨108, _⟩ => ⟨S_, .f32⟩
  | .hbm, ⟨109, _⟩ => ⟨S128, .f32⟩
  | .hbm, ⟨110, _⟩ => ⟨S128, .f32⟩
  | .hbm, ⟨111, _⟩ => ⟨S128x1, .f32⟩
  | .hbm, ⟨112, _⟩ => ⟨S128x128, .f32⟩
  | .hbm, ⟨113, _⟩ => ⟨S128x128, .f32⟩
  | .hbm, ⟨114, _⟩ => ⟨S128x128, .f32⟩
  | .hbm, ⟨115, _⟩ => ⟨S1x128, .f32⟩
  | .hbm, ⟨116, _⟩ => ⟨S128x128, .f32⟩
  | .hbm, ⟨117, _⟩ => ⟨S128x128, .f32⟩
  | .hbm, ⟨118, _⟩ => ⟨S128x16, .f32⟩
  | .hbm, ⟨119, _⟩ => ⟨S1x16, .f32⟩
  | .hbm, ⟨120, _⟩ => ⟨S128x16, .f32⟩
  | .hbm, ⟨121, _⟩ => ⟨S128x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_cst : Ref sig .tc := ⟨.hbm, 39, rfl⟩
abbrev main_call0_v0 : Ref sig .tc := ⟨.hbm, 40, rfl⟩
abbrev main_v26 : Ref sig .tc := ⟨.hbm, 41, rfl⟩
abbrev main_c_1 : Ref sig .tc := ⟨.hbm, 42, rfl⟩
abbrev main_v27 : Ref sig .tc := ⟨.hbm, 43, rfl⟩
abbrev main_v28 : Ref sig .tc := ⟨.hbm, 44, rfl⟩
abbrev main_c_2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩
abbrev main_c_4 : Ref sig .tc := ⟨.hbm, 70, rfl⟩
abbrev main_v50 : Ref sig .tc := ⟨.hbm, 71, rfl⟩
abbrev main_v51 : Ref sig .tc := ⟨.hbm, 72, rfl⟩
abbrev main_c_5 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_6 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_call2_cst : Ref sig .tc := ⟨.hbm, 95, rfl⟩
abbrev main_call2_v0 : Ref sig .tc := ⟨.hbm, 96, rfl⟩
abbrev main_v72 : Ref sig .tc := ⟨.hbm, 97, rfl⟩
abbrev main_cst_7 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_8 : Ref sig .tc := ⟨.hbm, 102, rfl⟩
abbrev main_v76 : Ref sig .tc := ⟨.hbm, 103, rfl⟩
abbrev main_cst_9 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_10 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S128x128 : S_.BroadcastsInDim S128x128 (![] : Fin 0 → Fin S128x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S16_S1x16_1 : S16.BroadcastsInDim S1x16 (![1] : Fin 1 → Fin S1x16.rank)
  bcast_S1x16_S128x16_0_1 : S1x16.BroadcastsInDim S128x16 (![0, 1] : Fin 2 → Fin S128x16.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x128_S128x128_1_0_0_1_n_n_wf : DotDims.WF S128x128 S128x128 S128x128 [1] [0] [0] [1] [] []
  dot_S128x128_S128x16_S128x16_1_0_0_1_n_n_wf : DotDims.WF S128x128 S128x16 S128x16 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x16_S128x16_1_0_0_1_n_n : DotDims S128x128 S128x16 S128x16 where
  lhsContracting := [1]
  rhsContracting := [0]
  lhsNonContracting := [0]
  rhsNonContracting := [1]
  lhsBatch := []
  rhsBatch := []
  wf := dot_S128x128_S128x16_S128x16_1_0_0_1_n_n_wf

class Facts : Prop extends Facts₀ where

variable [Facts]
-- ==== Proof.Net.lean ====
/-
  The network both programs compute, cut into the pieces they share.

  A graph of 50000 nodes with 128 features each and 800000 directed edges (src, dst) is passed through three
  message-passing updates, pooled per graph, and sent through a two-layer head:

    agg h        = the sum, into each node, of the rows h[src e] over the edges e that end at it (dst e)
    update       = max (agg h · Wrel + brel + h · Wroot, 0)
    pool h       = (the sum of the rows of h per graph) / max (the number of nodes of the graph, 1)
    head p       = (p · W1 + b1) · W2 + b2

  The gather / scatter-add that forms `agg`, and the pooling, are written here once, exactly as the host program spells
  them, and are never opened: both programs apply them to their own node features, so only the dense pieces
  (`update`, `head`) are ever read at an index. The reference's result is the composition `net`.
-/
import proofs.«147184_j32839319945735_1_alg».proof.ReferenceIdeal
import proofs.«147184_j32839319945735_1_alg».proof.Proof.Gen.ReferenceIdeal
import proofs.«147184_j32839319945735_1_alg».proof.Proof.Gen.ReferenceIdeal.Run

noncomputable section

namespace Cert.ReferenceIdeal.Net

open Cert.ReferenceIdeal Cert.ReferenceIdeal.Gen Idealize.ShloMosaic Idealize.ShloMosaic.TcCoe Idealize.SL.Sem

variable {F : FTy → Type} [FloatOps F]

/-- The edges' source nodes: row 0 of the edge list. -/
def srcOf (x1 : (⟨S2x800000, .i32⟩ : BufTy).Contents (Elt F)) : (⟨S800000, .i32⟩ : BufTy).Contents (Elt F) :=
  shapeCast _ (extractStridedSlice S1x800000 ![0, 0] x1 slices_S2x800000_S1x800000_0_0) shapeCasts_S1x800000_S800000

/-- The edges' target nodes: row 1 of the edge list. -/
def dstOf (x1 : (⟨S2x800000, .i32⟩ : BufTy).Contents (Elt F)) : (⟨S800000, .i32⟩ : BufTy).Contents (Elt F) :=
  shapeCast _ (extractStridedSlice S1x800000 ![1, 0] x1 slices_S2x800000_S1x800000_1_0) shapeCasts_S1x800000_S800000

/-- A node number below zero counts from the end: n + 50000 where n < 0, n otherwise. -/
def wrapOf (s : (⟨S800000, .i32⟩ : BufTy).Contents (Elt F)) : (⟨S800000, .i32⟩ : BufTy).Contents (Elt F) :=
  select (cmpi .slt s (broadcastInDim S800000 ![] bcast_S_S800000 (constantI S_ 32 0#32)))
    (addi s (broadcastInDim S800000 ![] bcast_S_S800000 (constantI S_ 32 50000#32))) s

/-- The neighbourhood sum: the rows `h[src e]` gathered per edge, then added into row `dst e` of a zero array. -/
def aggOf (h : (⟨S50000x128, .f32⟩ : BufTy).Contents (Elt F)) (s d : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (Host.gather gather_S50000x128_S800000x1_S800000x128_1_0_n_n_0_1_1128 h
      (broadcastInDim S800000x1 ![0] bcast_S800000_S800000x1_0 (wrapOf s)))

/-- Layer 0's 128 x 128 slab of a stack of three. -/
def slab0 (x : (⟨S3x128x128, .f32⟩ : BufTy).Contents (Elt F)) : (⟨S128x128, .f32⟩ : BufTy).Contents (Elt F) :=
  shapeCast _ (extractStridedSlice S1x128x128 ![0, 0, 0] x slices_S3x128x128_S1x128x128_0_0_0) shapeCasts_S1x128x128_S128x128
/-- Layer 1's slab. -/
def slab1 (x : (⟨S3x128x128, .f32⟩ : BufTy).Contents (Elt F)) : (⟨S128x128, .f32⟩ : BufTy).Contents (Elt F) :=
  shapeCast _ (extractStridedSlice S1x128x128 ![1, 0, 0] x slices_S3x128x128_S1x128x128_1_0_0) shapeCasts_S1x128x128_S128x128
/-- Layer 2's slab. -/
def slab2 (x : (⟨S3x128x128, .f32⟩ : BufTy).Contents (Elt F)) : (⟨S128x128, .f32⟩ : BufTy).Contents (Elt F) :=
  shapeCast _ (extractStridedSlice S1x128x128 ![2, 0, 0] x slices_S3x128x128_S1x128x128_2_0_0) shapeCasts_S1x128x128_S128x128

/-- Layer 0's bias vector of a stack of three. -/
def bias0 (x : (⟨S3x128, .f32⟩ : BufTy).Contents (Elt F)) : (⟨S128, .f32⟩ : BufTy).Contents (Elt F) :=
  shapeCast _ (extractStridedSlice S1x128 ![0, 0] x slices_S3x128_S1x128_0_0) shapeCasts_S1x128_S128
/-- Layer 1's bias vector. -/
def bias1 (x : (⟨S3x128, .f32⟩ : BufTy).Contents (Elt F)) : (⟨S128, .f32⟩ : BufTy).Contents (Elt F) :=
  shapeCast _ (extractStridedSlice S1x128 ![1, 0] x slices_S3x128_S1x128_1_0) shapeCasts_S1x128_S128
/-- Layer 2's bias vector. -/
def bias2 (x : (⟨S3x128, .f32⟩ : BufTy).Contents (Elt F)) : (⟨S128, .f32⟩ : BufTy).Contents (Elt F) :=
  shapeCast _ (extractStridedSlice S1x128 ![2, 0] x slices_S3x128_S1x128_2_0) shapeCasts_S1x128_S128

/-- One update of the node features: max (agg · w + b + h · wr, 0), in the host's spelling. -/
def updOf (agg h : (⟨S50000x128, .f32⟩ : BufTy).Contents (Elt F)) (w : (⟨S128x128, .f32⟩ : BufTy).Contents (Elt F))
    (b : (⟨S128, .f32⟩ : BufTy).Contents (Elt F)) (wr : (⟨S128x128, .f32⟩ : BufTy).Contents (Elt F)) :
    (⟨S50000x128, .f32⟩ : BufTy).Contents (Elt F) :=
  maximumf
    (addf
      (addf (Host.dotGeneral dot_S50000x128_S128x128_S50000x128_1_0_0_1_n_n none agg w)
        (broadcastInDim S50000x128 ![0, 1] bcast_S1x128_S50000x128_0_1 (broadcastInDim S1x128 ![1] bcast_S128_S1x128_1 b)))
      (Host.dotGeneral dot_S50000x128_S128x128_S50000x128_1_0_0_1_n_n none h wr))
    (broadcastInDim S50000x128 ![] bcast_S_S50000x128 (constant S_ .f32 0x00000000#32))

/-- The mean of the node features over each of the 128 graphs (an empty graph divides by one). -/
def poolOf (h : (⟨S50000x128, .f32⟩ : BufTy).Contents (Elt F)) (g : (⟨S50000, .i32⟩ : BufTy).Contents (Elt F)) :
    (⟨S128x128, .f32⟩ : BufTy).Contents (Elt F) :=
  Host.divf
    (Host.scatterAdd scatter_S128x128_S50000x1_S50000x128_1_0_0_1
      (broadcastInDim S128x128 ![] bcast_S_S128x128 (constant S_ .f32 0x00000000#32))
      (broadcastInDim S50000x1 ![0] bcast_S50000_S50000x1_0 g) h)
    (broadcastInDim S128x128 ![0, 1] bcast_S128x1_S128x128_0_1
      (broadcastInDim S128x1 ![0] bcast_S128_S128x1_0
        (maximumf
          (Host.scatterAdd scatter_S128_S50000x1_S50000_n_0_0_1
            (broadcastInDim S128 ![] bcast_S_S128 (constant S_ .f32 0x00000000#32))
            (broadcastInDim S50000x1 ![0] bcast_S50000_S50000x1_0 g)
            (broadcastInDim S50000 ![] bcast_S_S50000 (constant S_ .f32 0x3F800000#32)))
          (broadcastInDim S128 ![] bcast_S_S128 (constant S_ .f32 0x3F800000#32)))))

/-- The two-layer head: (p · w1 + b1) · w2 + b2, in the host's spelling. -/
def headOf (p w1 : (⟨S128x128, .f32⟩ : BufTy).Contents (Elt F)) (b1 : (⟨S128, .f32⟩ : BufTy).Contents (Elt F))
    (w2 : (⟨S128x16, .f32⟩ : BufTy).Contents (Elt F)) (b2 : (⟨S16, .f32⟩ : BufTy).Contents (Elt F)) :
    (⟨S128x16, .f32⟩ : BufTy).Contents (Elt F) :=
  addf
    (Host.dotGeneral dot_S128x128_S128x16_S128x16_1_0_0_1_n_n none
      (addf (Host.dotGeneral dot_S128x128_S128x128_S128x128_1_0_0_1_n_n none p w1)
        (broadcastInDim S128x128 ![0, 1] bcast_S1x128_S128x128_0_1 (broadcastInDim S1x128 ![1] bcast_S128_S1x128_1 b1)))
      w2)
    (broadcastInDim S128x16 ![0, 1] bcast_S1x16_S128x16_0_1 (broadcastInDim S1x16 ![1] bcast_S16_S1x16_1 b2))

/-- The node features after the first update. -/
def feat1 (x0 : (⟨S50000x128, .f32⟩ : BufTy).Contents (Elt F)) (x1 : (⟨S2x800000, .i32⟩ : BufTy).Contents (Elt F))
    (x3 : (⟨S3x128x128, .f32⟩ : BufTy).Contents (Elt F)) (x4 : (⟨S3x128, .f32⟩ : BufTy).Contents (Elt F))
    (x5 : (⟨S3x128x128, .f32⟩ : BufTy).Contents (Elt F)) : (⟨S50000x128, .f32⟩ : BufTy).Contents (Elt F) :=
  updOf (aggOf x0 (srcOf x1) (dstOf x1)) x0 (slab0 x3) (bias0 x4) (slab0 x5)

/-- The node features after the second update. -/
def feat2 (x0 : (⟨S50000x128, .f32⟩ : BufTy).Contents (Elt F)) (x1 : (⟨S2x800000, .i32⟩ : BufTy).Contents (Elt F))
    (x3 : (⟨S3x128x128, .f32⟩ : BufTy).Contents (Elt F)) (x4 : (⟨S3x128, .f32⟩ : BufTy).Contents (Elt F))
    (x5 : (⟨S3x128x128, .f32⟩ : BufTy).Contents (Elt F)) : (⟨S50000x128, .f32⟩ : BufTy).Contents (Elt F) :=
  updOf (aggOf (feat1 x0 x1 x3 x4 x5) (srcOf x1) (dstOf x1)) (feat1 x0 x1 x3 x4 x5) (slab1 x3) (bias1 x4) (slab1 x5)

/-- The node features after the third update. -/
def feat3 (x0 : (⟨S50000x128, .f32⟩ : BufTy).Contents (Elt F)) (x1 : (⟨S2x800000, .i32⟩ : BufTy).Contents (Elt F))
    (x3 : (⟨S3x128x128, .f32⟩ : BufTy).Contents (Elt F)) (x4 : (⟨S3x128, .f32⟩ : BufTy).Contents (Elt F))
    (x5 : (⟨S3x128x128, .f32⟩ : BufTy).Contents (Elt F)) : (⟨S50000x128, .f32⟩ : BufTy).Contents (Elt F) :=
  updOf (aggOf (feat2 x0 x1 x3 x4 x5) (srcOf x1) (dstOf x1)) (feat2 x0 x1 x3 x4 x5) (slab2 x3) (bias2 x4) (slab2 x5)

/-- The whole network: three updates, the per-graph mean, the head. -/
def net (x0 : (⟨S50000x128, .f32⟩ : BufTy).Contents (Elt F)) (x1 : (⟨S2x800000, .i32⟩ : BufTy).Contents (Elt F))
    (x2 : (⟨S50000, .i32⟩ : BufTy).Contents (Elt F))
    (x3 : (⟨S3x128x128, .f32⟩ : BufTy).Contents (Elt F)) (x4 : (⟨S3x128, .f32⟩ : BufTy).Contents (Elt F))
    (x5 : (⟨S3x128x128, .f32⟩ : BufTy).Contents (Elt F)) (x6 : (⟨S128x128, .f32⟩ : BufTy).Contents (Elt F))
    (x7 : (⟨S128, .f32⟩ : BufTy).Contents (Elt F)) (x8 : (⟨S128x16, .f32⟩ : BufTy).Contents (Elt F))
    (x9 : (⟨S16, .f32⟩ : BufTy).Contents (Elt F)) : (⟨S128x16, .f32⟩ : BufTy).Contents (Elt F) :=
  headOf (poolOf (feat3 x0 x1 x3 x4 x5) x2) x6 x7 x8 x9

/-- What the reference's run leaves in its result is the network of its arguments: the run's term is this
    composition, written out. -/
theorem res_eq_net (m : (ℓ : Loc nD τ sig) → Buf (Elt F) ℓ) (c : Dev nD) :
    Cert.ReferenceIdeal.Value.res_main_v92 m c
      = net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.Value.res_main_v92 net headOf poolOf feat3 feat2 feat1 updOf aggOf wrapOf srcOf dstOf
    slab0 slab1 slab2 bias0 bias1 bias2
  rfl

end Cert.ReferenceIdeal.Net

end
-- ==== Proof.KernelRun.lean ====
/-
  The idealized kernel program's run with its result named.

  The program is four pipelined kernel launches among stretches of host operations. Its run is the chain of those
  eight segments from the launch memory; after the last one every unscoped buffer holds the last boundary's contents.
  Read against the final state, that gives the result buffer as well as the ten argument buffers: the result is the
  last boundary's contents at the result's reference, each argument is as launched.
-/
import proofs.«147184_j32839319945735_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates without a fault, with the result buffer at the
    last segment boundary's contents and the arguments as launched. -/
theorem run : θ_run defs (onTc (τ := τ) (main (F := F))) ⟨m, fun _ => 0, ρ⟩ (fun r => ∀ c : Dev nD,
      r.2.mem ((c.tc : Thread nD τ).loc main_v72) = W8 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v72 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.Whole

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.KernelDots.lean ====
/-
  The three matrix products the kernels issue are plain ones: rows times columns over one inner axis, nothing batched.
  Stated once per set of dimension numbers, as the four coordinate facts of the operand indices.
-/
import proofs.«147184_j32839319945735_1_alg».proof.KernelIdeal
import proofs.«147184_j32839319945735_1_alg».proof.Proof.Gen.KernelIdeal
import proofs.«147184_j32839319945735_1_alg».proof.Proof.LibDotIx2

noncomputable section

namespace Cert.KernelIdeal.Whole

open Cert.KernelIdeal Cert.KernelIdeal.Gen Idealize.ShloMosaic Idealize.ShloMosaic.ValueIdx

/-- The zero offsets of a whole-block access, as a function. -/
theorem hz2 : (![0, 0] : Fin 2 → Nat) = fun _ => 0 := funext fun a => by fin_cases a <;> rfl

/-- `dot_S5000x128_S128x128_S5000x128_1_0_0_1_n_n` contracts the left operand's second axis with the right operand's first and batches nothing. -/
theorem plain_tile : PlainDot dot_S5000x128_S128x128_S5000x128_1_0_0_1_n_n where
  rank := rfl
  size := rfl
  l0 := fun i q => by
    unfold DotDims.lhsIdx
    rw [dif_neg (show ¬(0 : Fin S5000x128.rank) ∈ dot_S5000x128_S128x128_S5000x128_1_0_0_1_n_n.lhsBatch by decide),
      dif_pos (show (0 : Fin S5000x128.rank) ∈ dot_S5000x128_S128x128_S5000x128_1_0_0_1_n_n.lhsNonContracting by decide)]
    rfl
  l1 := fun i q => dot_S5000x128_S128x128_S5000x128_1_0_0_1_n_n.lhsIdx_val_of_single rfl i q
  r0 := fun i q => dot_S5000x128_S128x128_S5000x128_1_0_0_1_n_n.rhsIdx_val_of_single rfl i q
  r1 := fun i q => by
    unfold DotDims.rhsIdx
    rw [dif_neg (show ¬(1 : Fin S128x128.rank) ∈ dot_S5000x128_S128x128_S5000x128_1_0_0_1_n_n.rhsBatch by decide),
      dif_pos (show (1 : Fin S128x128.rank) ∈ dot_S5000x128_S128x128_S5000x128_1_0_0_1_n_n.rhsNonContracting by decide)]
    rfl

/-- `dot_S128x128_S128x128_S128x128_1_0_0_1_n_n` contracts the left operand's second axis with the right operand's first and batches nothing. -/
theorem plain_hidden : PlainDot dot_S128x128_S128x128_S128x128_1_0_0_1_n_n where
  rank := rfl
  size := rfl
  l0 := fun i q => by
    unfold DotDims.lhsIdx
    rw [dif_neg (show ¬(0 : Fin S128x128.rank) ∈ dot_S128x128_S128x128_S128x128_1_0_0_1_n_n.lhsBatch by decide),
      dif_pos (show (0 : Fin S128x128.rank) ∈ dot_S128x128_S128x128_S128x128_1_0_0_1_n_n.lhsNonContracting by decide)]
    rfl
  l1 := fun i q => dot_S128x128_S128x128_S128x128_1_0_0_1_n_n.lhsIdx_val_of_single rfl i q
  r0 := fun i q => dot_S128x128_S128x128_S128x128_1_0_0_1_n_n.rhsIdx_val_of_single rfl i q
  r1 := fun i q => by
    unfold DotDims.rhsIdx
    rw [dif_neg (show ¬(1 : Fin S128x128.rank) ∈ dot_S128x128_S128x128_S128x128_1_0_0_1_n_n.rhsBatch by decide),
      dif_pos (show (1 : Fin S128x128.rank) ∈ dot_S128x128_S128x128_S128x128_1_0_0_1_n_n.rhsNonContracting by decide)]
    rfl

/-- `dot_S128x128_S128x16_S128x16_1_0_0_1_n_n` contracts the left operand's second axis with the right operand's first and batches nothing. -/
theorem plain_out : PlainDot dot_S128x128_S128x16_S128x16_1_0_0_1_n_n where
  rank := rfl
  size := rfl
  l0 := fun i q => by
    unfold DotDims.lhsIdx
    rw [dif_neg (show ¬(0 : Fin S128x128.rank) ∈ dot_S128x128_S128x16_S128x16_1_0_0_1_n_n.lhsBatch by decide),
      dif_pos (show (0 : Fin S128x128.rank) ∈ dot_S128x128_S128x16_S128x16_1_0_0_1_n_n.lhsNonContracting by decide)]
    rfl
  l1 := fun i q => dot_S128x128_S128x16_S128x16_1_0_0_1_n_n.lhsIdx_val_of_single rfl i q
  r0 := fun i q => dot_S128x128_S128x16_S128x16_1_0_0_1_n_n.rhsIdx_val_of_single rfl i q
  r1 := fun i q => by
    unfold DotDims.rhsIdx
    rw [dif_neg (show ¬(1 : Fin S128x16.rank) ∈ dot_S128x128_S128x16_S128x16_1_0_0_1_n_n.rhsBatch by decide),
      dif_pos (show (1 : Fin S128x16.rank) ∈ dot_S128x128_S128x16_S128x16_1_0_0_1_n_n.rhsNonContracting by decide)]
    rfl

end Cert.KernelIdeal.Whole

end
-- ==== Proof.LibBroadcastInDim.lean ====
/-
  The host's broadcast_in_dim in the five small forms a row-wise normalisation uses, each read at an index given by
  coordinates: a scalar to any shape; a vector of length a to an a x 1 column; an a x 1 column to a x b; a vector of
  length b to a 1 x b row; a 1 x b row to a x b. In each the result's entry is the operand's entry at the coordinates
  the broadcast keeps.
-/
import Idealize.ShloMosaic.Lib.Pipeline.Value
import Idealize.ShloMosaic.Lib.ValueIdx

namespace Idealize.ShloMosaic.ValueIdx

open Idealize.ShloMosaic

variable {α : Type}

/-- A scalar broadcast to any shape reads the scalar everywhere. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A vector of length a placed as an a x 1 column reads, at (r, u), the vector at r. -/
theorem broadcastInDim_vec_col_apply {a : ℕ} (h : (⟨1, ![a]⟩ : Shape).BroadcastsInDim (⟨2, ![a, 1]⟩ : Shape) ![0])
    (x : (⟨1, ![a]⟩ : Shape).Idx → α) (r : Fin a) (u : Fin 1) :
    broadcastInDim (⟨2, ![a, 1]⟩ : Shape) ![0] h x (ix2 r u) = x (ix1 r) := by
  refine broadcastInDim_apply ![0] h x (ix2 r u) (ix1 r) fun ax => ?_
  match ax with
  | ⟨0, _⟩ =>
    show r.val = if a = 1 then 0 else r.val
    split
    · have := r.isLt; omega
    · rfl

/-- An a x 1 column broadcast to a x b reads, at (r, c), the column at (r, 0). -/
theorem broadcastInDim_col_mat_apply {a b : ℕ} (h : (⟨2, ![a, 1]⟩ : Shape).BroadcastsInDim (⟨2, ![a, b]⟩ : Shape) ![0, 1])
    (x : (⟨2, ![a, 1]⟩ : Shape).Idx → α) (r : Fin a) (c : Fin b) :
    broadcastInDim (⟨2, ![a, b]⟩ : Shape) ![0, 1] h x (ix2 r c) = x (ix2 r (0 : Fin 1)) := by
  refine broadcastInDim_apply ![0, 1] h x (ix2 r c) (ix2 r (0 : Fin 1)) fun ax => ?_
  match ax with
  | ⟨0, _⟩ =>
    show r.val = if a = 1 then 0 else r.val
    split
    · have := r.isLt; omega
    · rfl
  | ⟨1, _⟩ => rfl

/-- A vector of length b placed as a 1 x b row reads, at (u, c), the vector at c. -/
theorem broadcastInDim_vec_row_apply {b : ℕ} (h : (⟨1, ![b]⟩ : Shape).BroadcastsInDim (⟨2, ![1, b]⟩ : Shape) ![1])
    (x : (⟨1, ![b]⟩ : Shape).Idx → α) (u : Fin 1) (c : Fin b) :
    broadcastInDim (⟨2, ![1, b]⟩ : Shape) ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A 1 x b row broadcast to a x b reads, at (r, c), the row at (0, c). -/
theorem broadcastInDim_row_mat_apply {a b : ℕ} (h : (⟨2, ![1, b]⟩ : Shape).BroadcastsInDim (⟨2, ![a, b]⟩ : Shape) ![0, 1])
    (x : (⟨2, ![1, b]⟩ : Shape).Idx → α) (r : Fin a) (c : Fin b) :
    broadcastInDim (⟨2, ![a, b]⟩ : Shape) ![0, 1] h x (ix2 r c) = x (ix2 (0 : Fin 1) c) := by
  refine broadcastInDim_apply ![0, 1] h x (ix2 r c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx
-- ==== Proof.LibDenseSpellings.lean ====
/-
  The two dense pieces of the network, each read at a row and a column on the extended reals, in both spellings.

  One update of the node features is, at node r and feature c,

      max (Σ_k agg (r, k) · w (k, c) + b c + Σ_k h (r, k) · wr (k, c), 0).

  A kernel computes it on a tile of rows: two matrix-unit products into zero accumulators added first, the bias row
  (held as a 1 x 128 array, repeated down the tile) added last. The host computes it on all rows at once: the first
  product, the bias (a 128-vector laid along every row), then the second product. The two orders of the three terms
  agree because addition of extended reals is commutative and associative — no finiteness is used.

  The head is, at graph r and output c,   Σ_j (Σ_k p (r, k) · w1 (k, j) + b1 j) · w2 (j, c) + b2 c,   in one order
  on both sides. Changes of float format are the identity on the extended reals, so the kernel's narrowing of its
  operands before each product does not show.

  Everything is stated for any row count M, inner widths and output width, and for any dimension numbers that are
  those of a plain product (`PlainDot`): `tile_update_apply` / `host_update_apply` read the two spellings of the update
  as `updAt`, `tile_head_apply` / `host_head_apply` the two spellings of the head as `headAt`.
-/
import Idealize.ShloMosaic.PureOps.Ideal.Laws
import Idealize.ShloMosaic.Lib.ValueIdx
import Idealize.ShloMosaic.Lib.ValueLayout
import Idealize.ShloMosaic.Lib.KernelVsHost
import proofs.«147184_j32839319945735_1_alg».proof.Proof.LibDotIx2
import proofs.«147184_j32839319945735_1_alg».proof.Proof.LibBroadcastInDim

noncomputable section

open scoped BigOperators

namespace Idealize.ShloMosaic.ValueIdx

open Idealize.ShloMosaic

/-- One update at node `r` and feature `c`, from the neighbourhood sums `agg`, the features `h`, the two weight
    matrices and the bias as a function of the feature. -/
def updAt {M K N : ℕ} (agg h : (⟨2, ![M, K]⟩ : Shape).Idx → EReal) (w wr : (⟨2, ![K, N]⟩ : Shape).Idx → EReal)
    (b : Fin N → EReal) (r : Fin M) (c : Fin N) : EReal :=
  max (((∑ k : Fin K, agg (ix2 r k) * w (ix2 k c)) + b c) + ∑ k : Fin K, h (ix2 r k) * wr (ix2 k c))
    (Ideal.ofBits .f32 0x00000000#32)

/-- The head at graph `r` and output `c`. -/
def headAt {M K J N : ℕ} (p : (⟨2, ![M, K]⟩ : Shape).Idx → EReal) (w1 : (⟨2, ![K, J]⟩ : Shape).Idx → EReal)
    (b1 : Fin J → EReal) (w2 : (⟨2, ![J, N]⟩ : Shape).Idx → EReal) (b2 : Fin N → EReal) (r : Fin M) (c : Fin N) : EReal :=
  (∑ j : Fin J, ((∑ k : Fin K, p (ix2 r k) * w1 (ix2 k j)) + b1 j) * w2 (ix2 j c)) + b2 c

/-- THE KERNEL'S SPELLING of an update on a tile of `M` rows, at row `p` of the tile and feature `q`: the two
    products first, the bias row last; the sum of the three terms regrouped to the order of `updAt`. -/
theorem tile_update_apply {M K N : ℕ} {d : DotDims (⟨2, ![M, K]⟩ : Shape) (⟨2, ![K, N]⟩ : Shape) (⟨2, ![M, N]⟩ : Shape)}
    (hd : PlainDot d) (hbits : FTy.bits .bf16 < FTy.bits .f32)
    (x0 x1 : FVec Ideal (⟨2, ![M, K]⟩ : Shape) .f32) (w wr : FVec Ideal (⟨2, ![K, N]⟩ : Shape) .f32)
    (b : FVec Ideal (⟨2, ![1, N]⟩ : Shape) .f32) (hb : (⟨2, ![1, N]⟩ : Shape).Broadcasts ⟨2, ![M, N]⟩)
    (p : Fin M) (q : Fin N) :
    maximumf
        (addf
          (addf (matmul d none (truncf .bf16 x0 hbits) (truncf .bf16 w hbits) (constant (⟨2, ![M, N]⟩ : Shape) .f32 0x00000000#32))
            (matmul d none (truncf .bf16 x1 hbits) (truncf .bf16 wr hbits) (constant (⟨2, ![M, N]⟩ : Shape) .f32 0x00000000#32)))
          (broadcastTo (⟨2, ![M, N]⟩ : Shape) b hb))
        (broadcast (⟨2, ![M, N]⟩ : Shape) (Scalar.ofBits (F := Ideal) .f32 0x00000000#32)) (ix2 p q)
      = updAt x0 x1 w wr (fun c => b (ix2 (0 : Fin 1) c)) p q := by
  rw [maximumf_apply, addf_apply, addf_apply]
  have e0 := matmul_zero_ix2_any hd none (truncf .bf16 x0 hbits) (truncf .bf16 w hbits) p q
  have e1 := matmul_zero_ix2_any hd none (truncf .bf16 x1 hbits) (truncf .bf16 wr hbits) p q
  have e2 := broadcastTo_1b_ab_apply b hb p q
  unfold updAt
  refine congrArg₂ max ?_ rfl
  refine (congrArg₂ (· + ·) (congrArg₂ (· + ·) e0 e1) e2).trans ?_
  exact add_right_comm _ _ _

/-- THE HOST'S SPELLING of an update on all `M` rows, at node `r` and feature `c`. -/
theorem host_update_apply {M K N : ℕ} {d : DotDims (⟨2, ![M, K]⟩ : Shape) (⟨2, ![K, N]⟩ : Shape) (⟨2, ![M, N]⟩ : Shape)}
    (hd : PlainDot d)
    (agg h : FVec Ideal (⟨2, ![M, K]⟩ : Shape) .f32) (w wr : FVec Ideal (⟨2, ![K, N]⟩ : Shape) .f32)
    (b : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![M, N]⟩ : Shape) ![0, 1])
    (hz : (⟨0, ![]⟩ : Shape).BroadcastsInDim (⟨2, ![M, N]⟩ : Shape) ![])
    (r : Fin M) (c : Fin N) :
    maximumf
        (addf
          (addf (Host.dotGeneral d none agg w)
            (broadcastInDim (⟨2, ![M, N]⟩ : Shape) ![0, 1] h2 (broadcastInDim (⟨2, ![1, N]⟩ : Shape) ![1] h1 b)))
          (Host.dotGeneral d none h wr))
        (broadcastInDim (⟨2, ![M, N]⟩ : Shape) ![] hz (constant (F := Ideal) (⟨0, ![]⟩ : Shape) .f32 0x00000000#32)) (ix2 r c)
      = updAt agg h w wr (fun c => b (ix1 c)) r c := by
  rw [maximumf_apply, addf_apply, addf_apply]
  have e0 := dotGeneral_ix2_any hd none .single agg w r c
  have e1 := dotGeneral_ix2_any hd none .single h wr r c
  have e2 : broadcastInDim (⟨2, ![M, N]⟩ : Shape) ![0, 1] h2 (broadcastInDim (⟨2, ![1, N]⟩ : Shape) ![1] h1 b) (ix2 r c) = b (ix1 c) :=
    (broadcastInDim_row_mat_apply h2 _ r c).trans (broadcastInDim_vec_row_apply h1 b 0 c)
  have e3 := broadcastInDim_scalar_apply ![] hz (constant (F := Ideal) (⟨0, ![]⟩ : Shape) .f32 0x00000000#32) (ix2 r c)
  unfold updAt
  exact congrArg₂ max (congrArg₂ (· + ·) (congrArg₂ (· + ·) e0 e2) e1) e3

/-- THE KERNEL'S SPELLING of the head on its one tile, at graph `p` and output `q`. -/
theorem tile_head_apply {M K J N : ℕ}
    {d1 : DotDims (⟨2, ![M, K]⟩ : Shape) (⟨2, ![K, J]⟩ : Shape) (⟨2, ![M, J]⟩ : Shape)}
    {d2 : DotDims (⟨2, ![M, J]⟩ : Shape) (⟨2, ![J, N]⟩ : Shape) (⟨2, ![M, N]⟩ : Shape)}
    (hd1 : PlainDot d1) (hd2 : PlainDot d2) (hbits : FTy.bits .bf16 < FTy.bits .f32)
    (x0 : FVec Ideal (⟨2, ![M, K]⟩ : Shape) .f32) (w1 : FVec Ideal (⟨2, ![K, J]⟩ : Shape) .f32)
    (b1 : FVec Ideal (⟨2, ![1, J]⟩ : Shape) .f32) (hb1 : (⟨2, ![1, J]⟩ : Shape).Broadcasts ⟨2, ![M, J]⟩)
    (w2 : FVec Ideal (⟨2, ![J, N]⟩ : Shape) .f32)
    (b2 : FVec Ideal (⟨2, ![1, N]⟩ : Shape) .f32) (hb2 : (⟨2, ![1, N]⟩ : Shape).Broadcasts ⟨2, ![M, N]⟩)
    (p : Fin M) (q : Fin N) :
    addf
        (matmul d2 none
          (truncf .bf16
            (addf (matmul d1 none (truncf .bf16 x0 hbits) (truncf .bf16 w1 hbits) (constant (⟨2, ![M, J]⟩ : Shape) .f32 0x00000000#32))
              (broadcastTo (⟨2, ![M, J]⟩ : Shape) b1 hb1)) hbits)
          (truncf .bf16 w2 hbits) (constant (⟨2, ![M, N]⟩ : Shape) .f32 0x00000000#32))
        (broadcastTo (⟨2, ![M, N]⟩ : Shape) b2 hb2) (ix2 p q)
      = headAt x0 w1 (fun j => b1 (ix2 (0 : Fin 1) j)) w2 (fun c => b2 (ix2 (0 : Fin 1) c)) p q := by
  rw [addf_apply]
  have e0 := matmul_zero_ix2_any hd2 none
    (truncf .bf16
      (addf (matmul d1 none (truncf .bf16 x0 hbits) (truncf .bf16 w1 hbits) (constant (⟨2, ![M, J]⟩ : Shape) .f32 0x00000000#32))
        (broadcastTo (⟨2, ![M, J]⟩ : Shape) b1 hb1)) hbits)
    (truncf .bf16 w2 hbits) p q
  have e2 := broadcastTo_1b_ab_apply b2 hb2 p q
  unfold headAt
  refine (congrArg₂ (· + ·) e0 e2).trans ?_
  refine congrArg (· + _) (Finset.sum_congr rfl fun j _ => ?_)
  refine congrArg (· * _) ?_
  show addf (matmul d1 none (truncf .bf16 x0 hbits) (truncf .bf16 w1 hbits) (constant (⟨2, ![M, J]⟩ : Shape) .f32 0x00000000#32))
      (broadcastTo (⟨2, ![M, J]⟩ : Shape) b1 hb1) (ix2 p j) = _
  rw [addf_apply]
  exact congrArg₂ (· + ·) (matmul_zero_ix2_any hd1 none (truncf .bf16 x0 hbits) (truncf .bf16 w1 hbits) p j)
    (broadcastTo_1b_ab_apply b1 hb1 p j)

/-- THE HOST'S SPELLING of the head, at graph `r` and output `c`. -/
theorem host_head_apply {M K J N : ℕ}
    {d1 : DotDims (⟨2, ![M, K]⟩ : Shape) (⟨2, ![K, J]⟩ : Shape) (⟨2, ![M, J]⟩ : Shape)}
    {d2 : DotDims (⟨2, ![M, J]⟩ : Shape) (⟨2, ![J, N]⟩ : Shape) (⟨2, ![M, N]⟩ : Shape)}
    (hd1 : PlainDot d1) (hd2 : PlainDot d2)
    (p : FVec Ideal (⟨2, ![M, K]⟩ : Shape) .f32) (w1 : FVec Ideal (⟨2, ![K, J]⟩ : Shape) .f32)
    (b1 : FVec Ideal (⟨1, ![J]⟩ : Shape) .f32)
    (g1 : (⟨1, ![J]⟩ : Shape).BroadcastsInDim (⟨2, ![1, J]⟩ : Shape) ![1])
    (g2 : (⟨2, ![1, J]⟩ : Shape).BroadcastsInDim (⟨2, ![M, J]⟩ : Shape) ![0, 1])
    (w2 : FVec Ideal (⟨2, ![J, N]⟩ : Shape) .f32)
    (b2 : FVec Ideal (⟨1, ![N]⟩ : Shape) .f32)
    (k1 : (⟨1, ![N]⟩ : Shape).BroadcastsInDim (⟨2, ![1, N]⟩ : Shape) ![1])
    (k2 : (⟨2, ![1, N]⟩ : Shape).BroadcastsInDim (⟨2, ![M, N]⟩ : Shape) ![0, 1])
    (r : Fin M) (c : Fin N) :
    addf
        (Host.dotGeneral d2 none
          (addf (Host.dotGeneral d1 none p w1)
            (broadcastInDim (⟨2, ![M, J]⟩ : Shape) ![0, 1] g2 (broadcastInDim (⟨2, ![1, J]⟩ : Shape) ![1] g1 b1)))
          w2)
        (broadcastInDim (⟨2, ![M, N]⟩ : Shape) ![0, 1] k2 (broadcastInDim (⟨2, ![1, N]⟩ : Shape) ![1] k1 b2)) (ix2 r c)
      = headAt p w1 (fun j => b1 (ix1 j)) w2 (fun c => b2 (ix1 c)) r c := by
  rw [addf_apply]
  have e0 := dotGeneral_ix2_any hd2 none .single
    (addf (Host.dotGeneral d1 none p w1)
      (broadcastInDim (⟨2, ![M, J]⟩ : Shape) ![0, 1] g2 (broadcastInDim (⟨2, ![1, J]⟩ : Shape) ![1] g1 b1))) w2 r c
  have e2 : broadcastInDim (⟨2, ![M, N]⟩ : Shape) ![0, 1] k2 (broadcastInDim (⟨2, ![1, N]⟩ : Shape) ![1] k1 b2) (ix2 r c) = b2 (ix1 c) :=
    (broadcastInDim_row_mat_apply k2 _ r c).trans (broadcastInDim_vec_row_apply k1 b2 0 c)
  unfold headAt
  refine (congrArg₂ (· + ·) e0 e2).trans ?_
  refine congrArg (· + _) (Finset.sum_congr rfl fun j _ => ?_)
  refine congrArg (· * _) ?_
  show addf (Host.dotGeneral d1 none p w1)
      (broadcastInDim (⟨2, ![M, J]⟩ : Shape) ![0, 1] g2 (broadcastInDim (⟨2, ![1, J]⟩ : Shape) ![1] g1 b1)) (ix2 r j) = _
  rw [addf_apply]
  exact congrArg₂ (· + ·) (dotGeneral_ix2_any hd1 none .single p w1 r j)
    ((broadcastInDim_row_mat_apply g2 _ r j).trans (broadcastInDim_vec_row_apply g1 b1 0 j))

end Idealize.ShloMosaic.ValueIdx

end
-- ==== Proof.NetAt.lean ====
/-
  The reference's two dense pieces read at an index: `updOf` at node r and feature c is `updAt`, `headOf` at graph r
  and output c is `headAt` — the host's products as sums over the inner axis, its broadcast biases as the bias at the
  column, its zero splat as the zero word.
-/
import proofs.«147184_j32839319945735_1_alg».proof.Proof.Net
import proofs.«147184_j32839319945735_1_alg».proof.Proof.LibDenseSpellings

noncomputable section

namespace Cert.ReferenceIdeal.Net

open Cert.ReferenceIdeal Cert.ReferenceIdeal.Gen Idealize.ShloMosaic Idealize.ShloMosaic.ValueIdx

/-- `dot_S50000x128_S128x128_S50000x128_1_0_0_1_n_n` contracts the left operand's second axis with the right operand's first and batches nothing. -/
theorem plain_rows : PlainDot dot_S50000x128_S128x128_S50000x128_1_0_0_1_n_n where
  rank := rfl
  size := rfl
  l0 := fun i q => by
    unfold DotDims.lhsIdx
    rw [dif_neg (show ¬(0 : Fin S50000x128.rank) ∈ dot_S50000x128_S128x128_S50000x128_1_0_0_1_n_n.lhsBatch by decide),
      dif_pos (show (0 : Fin S50000x128.rank) ∈ dot_S50000x128_S128x128_S50000x128_1_0_0_1_n_n.lhsNonContracting by decide)]
    rfl
  l1 := fun i q => dot_S50000x128_S128x128_S50000x128_1_0_0_1_n_n.lhsIdx_val_of_single rfl i q
  r0 := fun i q => dot_S50000x128_S128x128_S50000x128_1_0_0_1_n_n.rhsIdx_val_of_single rfl i q
  r1 := fun i q => by
    unfold DotDims.rhsIdx
    rw [dif_neg (show ¬(1 : Fin S128x128.rank) ∈ dot_S50000x128_S128x128_S50000x128_1_0_0_1_n_n.rhsBatch by decide),
      dif_pos (show (1 : Fin S128x128.rank) ∈ dot_S50000x128_S128x128_S50000x128_1_0_0_1_n_n.rhsNonContracting by decide)]
    rfl

/-- `dot_S128x128_S128x128_S128x128_1_0_0_1_n_n` contracts the left operand's second axis with the right operand's first and batches nothing. -/
theorem plain_hidden : PlainDot dot_S128x128_S128x128_S128x128_1_0_0_1_n_n where
  rank := rfl
  size := rfl
  l0 := fun i q => by
    unfold DotDims.lhsIdx
    rw [dif_neg (show ¬(0 : Fin S128x128.rank) ∈ dot_S128x128_S128x128_S128x128_1_0_0_1_n_n.lhsBatch by decide),
      dif_pos (show (0 : Fin S128x128.rank) ∈ dot_S128x128_S128x128_S128x128_1_0_0_1_n_n.lhsNonContracting by decide)]
    rfl
  l1 := fun i q => dot_S128x128_S128x128_S128x128_1_0_0_1_n_n.lhsIdx_val_of_single rfl i q
  r0 := fun i q => dot_S128x128_S128x128_S128x128_1_0_0_1_n_n.rhsIdx_val_of_single rfl i q
  r1 := fun i q => by
    unfold DotDims.rhsIdx
    rw [dif_neg (show ¬(1 : Fin S128x128.rank) ∈ dot_S128x128_S128x128_S128x128_1_0_0_1_n_n.rhsBatch by decide),
      dif_pos (show (1 : Fin S128x128.rank) ∈ dot_S128x128_S128x128_S128x128_1_0_0_1_n_n.rhsNonContracting by decide)]
    rfl

/-- `dot_S128x128_S128x16_S128x16_1_0_0_1_n_n` contracts the left operand's second axis with the right operand's first and batches nothing. -/
theorem plain_out : PlainDot dot_S128x128_S128x16_S128x16_1_0_0_1_n_n where
  rank := rfl
  size := rfl
  l0 := fun i q => by
    unfold DotDims.lhsIdx
    rw [dif_neg (show ¬(0 : Fin S128x128.rank) ∈ dot_S128x128_S128x16_S128x16_1_0_0_1_n_n.lhsBatch by decide),
      dif_pos (show (0 : Fin S128x128.rank) ∈ dot_S128x128_S128x16_S128x16_1_0_0_1_n_n.lhsNonContracting by decide)]
    rfl
  l1 := fun i q => dot_S128x128_S128x16_S128x16_1_0_0_1_n_n.lhsIdx_val_of_single rfl i q
  r0 := fun i q => dot_S128x128_S128x16_S128x16_1_0_0_1_n_n.rhsIdx_val_of_single rfl i q
  r1 := fun i q => by
    unfold DotDims.rhsIdx
    rw [dif_neg (show ¬(1 : Fin S128x16.rank) ∈ dot_S128x128_S128x16_S128x16_1_0_0_1_n_n.rhsBatch by decide),
      dif_pos (show (1 : Fin S128x16.rank) ∈ dot_S128x128_S128x16_S128x16_1_0_0_1_n_n.rhsNonContracting by decide)]
    rfl

/-- One update, at node `r` and feature `c`. -/
theorem updOf_apply (agg h : (⟨S50000x128, .f32⟩ : BufTy).Contents (Elt Ideal)) (w : (⟨S128x128, .f32⟩ : BufTy).Contents (Elt Ideal))
    (b : (⟨S128, .f32⟩ : BufTy).Contents (Elt Ideal)) (wr : (⟨S128x128, .f32⟩ : BufTy).Contents (Elt Ideal))
    (r : Fin 50000) (c : Fin 128) :
    updOf (F := Ideal) agg h w b wr (ix2 r c) = updAt agg h w wr (fun c => b (ix1 c)) r c := by
  unfold updOf
  exact host_update_apply plain_rows agg h w wr b bcast_S128_S1x128_1 bcast_S1x128_S50000x128_0_1 bcast_S_S50000x128 r c

/-- The head, at graph `r` and output `c`. -/
theorem headOf_apply (p w1 : (⟨S128x128, .f32⟩ : BufTy).Contents (Elt Ideal)) (b1 : (⟨S128, .f32⟩ : BufTy).Contents (Elt Ideal))
    (w2 : (⟨S128x16, .f32⟩ : BufTy).Contents (Elt Ideal)) (b2 : (⟨S16, .f32⟩ : BufTy).Contents (Elt Ideal))
    (r : Fin 128) (c : Fin 16) :
    headOf (F := Ideal) p w1 b1 w2 b2 (ix2 r c) = headAt p w1 (fun j => b1 (ix1 j)) w2 (fun c => b2 (ix1 c)) r c := by
  unfold headOf
  exact host_head_apply plain_hidden plain_out p w1 b1 bcast_S128_S1x128_1 bcast_S1x128_S128x128_0_1 w2 b2
    bcast_S16_S1x16_1 bcast_S1x16_S128x16_0_1 r c

/-- A TILE OF ROWS AGAINST ALL ROWS. If a tile's operands are rows `r` of the whole arrays' (the neighbourhood sums and
    the features), the weights are the whole weights, and the bias row is the bias vector, then the update computed on
    the tile at its row `p` is the whole update at node `r`. -/
theorem tile_eq_rows {M : ℕ} (x0 x1 : (⟨2, ![M, 128]⟩ : Shape).Idx → EReal) (x2 x4 : (⟨2, ![128, 128]⟩ : Shape).Idx → EReal)
    (x3 : (⟨2, ![1, 128]⟩ : Shape).Idx → EReal)
    (A H : (⟨S50000x128, .f32⟩ : BufTy).Contents (Elt Ideal)) (W WR : (⟨S128x128, .f32⟩ : BufTy).Contents (Elt Ideal))
    (b : (⟨S128, .f32⟩ : BufTy).Contents (Elt Ideal)) (p : Fin M) (q : Fin 128) (r : Fin 50000)
    (h0 : ∀ k : Fin 128, x0 (ix2 p k) = A (ix2 r k)) (h1 : ∀ k : Fin 128, x1 (ix2 p k) = H (ix2 r k))
    (h2 : ∀ k : Fin 128, x2 (ix2 k q) = W (ix2 k q)) (h4 : ∀ k : Fin 128, x4 (ix2 k q) = WR (ix2 k q))
    (h3 : x3 (ix2 (0 : Fin 1) q) = b (ix1 q)) :
    updAt x0 x1 x2 x4 (fun c => x3 (ix2 (0 : Fin 1) c)) p q = updOf (F := Ideal) A H W b WR (ix2 r q) := by
  rw [updOf_apply]
  unfold updAt
  simp only [h0, h1, h2, h4, h3]

/-- THE HEAD'S ONE TILE AGAINST THE WHOLE. -/
theorem tile_eq_head (x0 x1 : (⟨2, ![128, 128]⟩ : Shape).Idx → EReal) (x2 : (⟨2, ![1, 128]⟩ : Shape).Idx → EReal)
    (x3 : (⟨2, ![128, 16]⟩ : Shape).Idx → EReal) (x4 : (⟨2, ![1, 16]⟩ : Shape).Idx → EReal)
    (Pl W1 : (⟨S128x128, .f32⟩ : BufTy).Contents (Elt Ideal)) (b1 : (⟨S128, .f32⟩ : BufTy).Contents (Elt Ideal))
    (W2 : (⟨S128x16, .f32⟩ : BufTy).Contents (Elt Ideal)) (b2 : (⟨S16, .f32⟩ : BufTy).Contents (Elt Ideal))
    (p : Fin 128) (q : Fin 16)
    (h0 : ∀ k : Fin 128, x0 (ix2 p k) = Pl (ix2 p k)) (h1 : ∀ k j : Fin 128, x1 (ix2 k j) = W1 (ix2 k j))
    (h2 : ∀ j : Fin 128, x2 (ix2 (0 : Fin 1) j) = b1 (ix1 j)) (h3 : ∀ j : Fin 128, x3 (ix2 j q) = W2 (ix2 j q))
    (h4 : x4 (ix2 (0 : Fin 1) q) = b2 (ix1 q)) :
    headAt x0 x1 (fun j => x2 (ix2 (0 : Fin 1) j)) x3 (fun c => x4 (ix2 (0 : Fin 1) c)) p q
      = headOf (F := Ideal) Pl W1 b1 W2 b2 (ix2 p q) := by
  rw [headOf_apply]
  unfold headAt
  simp only [h0, h1, h2, h3, h4]

end Cert.ReferenceIdeal.Net

end
-- ==== Proof.Region0.lean ====
/-
  The first update's kernel launch, read as a value.

  The launch walks ten tiles of 5000 nodes. At tile t its body loads rows 5000 t … 5000 t + 4999 of the neighbourhood
  sums and of the node features, the two 128 x 128 weight matrices whole and the 1 x 128 bias row, and stores
  max (sums · w + features · wr + bias, 0) over the tile's rows of the output. Each tile's result is the same rows of
  ONE whole-array function — the host's spelling of the update, `updOf`, of the arrays as the launch finds them — and the
  ten tiles cover all 50000 rows, so the output array ends holding that function.
-/
import proofs.«147184_j32839319945735_1_alg».proof.Proof.Gen.KernelIdeal.Frame
import proofs.«147184_j32839319945735_1_alg».proof.Proof.KernelDots
import proofs.«147184_j32839319945735_1_alg».proof.Proof.NetAt

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The body's stored value at row `p` of the tile and feature `q`, from its five loaded blocks. -/
theorem pay0_apply (v0 v3 : Vec Ideal S5000x128 .f32) (v5 v8 : Vec Ideal S128x128 .f32) (v14 : Vec Ideal S1x128 .f32)
    (p : Fin 5000) (q : Fin 128) :
    k0_pay1 (F := Ideal) v0 v3 v5 v8 v14 (ix2 p q) = updAt v0 v3 v5 v8 (fun c => v14 (ix2 (0 : Fin 1) c)) p q := by
  unfold k0_pay1
  simp only [shapeCast_self]
  exact tile_update_apply plain_tile bitsLt_bf16_f32 v0 v3 v5 v8 v14 broadcasts_S1x128_S5000x128 p q

/-- The printed index maps over the ten tiles: the two row-tiled inputs and the output sit at tile `t`, the weights and
    the bias row at their one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Tile `t` of the neighbourhood sums is their rows from 5000 t on. -/
theorem blk0_0 (c : Dev nD) (t : Fin cfg0.N) (x : S5000x128.Idx) (k : S50000x128.Idx)
    (hk0 : (k 0).val = t.val * 5000 + (x 0).val) (hk1 : (k 1).val = (x 1).val) :
    (iblk0 V c 0 t : Vec Ideal S5000x128 .f32) x = (V c main_v13 : S50000x128.Idx → EReal) k := by
  obtain ⟨e0, e1, -⟩ := idx_facts0 t
  unfold iblk0
  rw [View.read_apply]
  show (V c main_v13 : S50000x128.Idx → EReal) _ = _
  refine congrArg (V c main_v13 : S50000x128.Idx → EReal) ?_
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 128 + 1 * (x 1).val = (k 1).val; rw [e1, hk1]; omega

/-- Tile `t` of the node features is their rows from 5000 t on. -/
theorem blk0_1 (c : Dev nD) (t : Fin cfg0.N) (x : S5000x128.Idx) (k : S50000x128.Idx)
    (hk0 : (k 0).val = t.val * 5000 + (x 0).val) (hk1 : (k 1).val = (x 1).val) :
    (iblk0 V c 1 t : Vec Ideal S5000x128 .f32) x = (V c main_arg0 : S50000x128.Idx → EReal) k := by
  obtain ⟨-, -, e0, e1, -⟩ := idx_facts0 t
  unfold iblk0
  rw [View.read_apply]
  show (V c main_arg0 : S50000x128.Idx → EReal) _ = _
  refine congrArg (V c main_arg0 : S50000x128.Idx → EReal) ?_
  funext a
  apply Fin.ext
  match a with
  | ⟨0, _⟩ => show win0_1.index t (0 : Fin 2) * 5000 + 1 * (x 0).val = (k 0).val; rw [e0, hk0]; omega
  | ⟨1, _⟩ => show win0_1.index t (1 : Fin 2) * 128 + 1 * (x 1).val = (k 1).val; rw [e1, hk1]; omega

/-- The first weight matrix's one block is the matrix. -/
theorem blk0_2 (c : Dev nD) (t : Fin cfg0.N) (x : S128x128.Idx) :
    (iblk0 V c 2 t : Vec Ideal S128x128 .f32) x = (V c main_v18 : S128x128.Idx → EReal) x := by
  obtain ⟨-, -, -, -, e0, e1, -⟩ := idx_facts0 t
  unfold iblk0
  rw [View.read_apply]
  show (V c main_v18 : S128x128.Idx → EReal) _ = _
  refine congrArg (V c main_v18 : S128x128.Idx → EReal) ?_
  funext a
  apply Fin.ext
  match a with
  | ⟨0, _⟩ => show win0_2.index t (0 : Fin 2) * 128 + 1 * (x 0).val = (x 0).val; rw [e0]; omega
  | ⟨1, _⟩ => show win0_2.index t (1 : Fin 2) * 128 + 1 * (x 1).val = (x 1).val; rw [e1]; omega

/-- The bias row's one block is the row. -/
theorem blk0_3 (c : Dev nD) (t : Fin cfg0.N) (x : S1x128.Idx) :
    (iblk0 V c 3 t : Vec Ideal S1x128 .f32) x = (V c main_v16 : S1x128.Idx → EReal) x := by
  obtain ⟨-, -, -, -, -, -, e0, e1, -⟩ := idx_facts0 t
  unfold iblk0
  rw [View.read_apply]
  show (V c main_v16 : S1x128.Idx → EReal) _ = _
  refine congrArg (V c main_v16 : S1x128.Idx → EReal) ?_
  funext a
  apply Fin.ext
  match a with
  | ⟨0, _⟩ => show win0_3.index t (0 : Fin 2) * 1 + 1 * (x 0).val = (x 0).val; rw [e0]; omega
  | ⟨1, _⟩ => show win0_3.index t (1 : Fin 2) * 128 + 1 * (x 1).val = (x 1).val; rw [e1]; omega

/-- The second weight matrix's one block is the matrix. -/
theorem blk0_4 (c : Dev nD) (t : Fin cfg0.N) (x : S128x128.Idx) :
    (iblk0 V c 4 t : Vec Ideal S128x128 .f32) x = (V c main_v20 : S128x128.Idx → EReal) x := by
  obtain ⟨-, -, -, -, -, -, -, -, e0, e1, -⟩ := idx_facts0 t
  unfold iblk0
  rw [View.read_apply]
  show (V c main_v20 : S128x128.Idx → EReal) _ = _
  refine congrArg (V c main_v20 : S128x128.Idx → EReal) ?_
  funext a
  apply Fin.ext
  match a with
  | ⟨0, _⟩ => show win0_4.index t (0 : Fin 2) * 128 + 1 * (x 0).val = (x 0).val; rw [e0]; omega
  | ⟨1, _⟩ => show win0_4.index t (1 : Fin 2) * 128 + 1 * (x 1).val = (x 1).val; rw [e1]; omega

/-- AT ONE ELEMENT: what tile `t`'s body stores at `j` is the whole update at the node 5000 t + (j's row), when the bias
    row the launch finds is the bias vector `b` recast as a row. -/
theorem point0 (c : Dev nD) (b : (⟨Cert.ReferenceIdeal.S128, .f32⟩ : BufTy).Contents (Elt Ideal))
    (hb : (V c main_v16 : S1x128.Idx → EReal) = shapeCast S1x128 b shapeCasts_S128_S1x128)
    (t : Fin cfg0.N) (j : S5000x128.Idx) (i : S50000x128.Idx)
    (hi0 : (i 0).val = t.val * 5000 + (j 0).val) (hi1 : (i 1).val = (j 1).val) :
    k0_pay1 (F := Ideal) (iblk0 V c 0 t) (iblk0 V c 1 t) (iblk0 V c 2 t) (iblk0 V c 4 t) (iblk0 V c 3 t) j
      = Cert.ReferenceIdeal.Net.updOf (F := Ideal) (V c main_v13) (V c main_arg0) (V c main_v18) b (V c main_v20) i := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  obtain rfl : s = q := Fin.ext hi1
  refine (pay0_apply (iblk0 V c 0 t) (iblk0 V c 1 t) (iblk0 V c 2 t) (iblk0 V c 4 t) (iblk0 V c 3 t) p s).trans ?_
  refine Cert.ReferenceIdeal.Net.tile_eq_rows (iblk0 V c 0 t) (iblk0 V c 1 t) (iblk0 V c 2 t) (iblk0 V c 4 t) (iblk0 V c 3 t)
    (V c main_v13) (V c main_arg0) (V c main_v18) (V c main_v20) b p s r ?_ ?_ ?_ ?_ ?_
  · exact fun k => blk0_0 V c t (ix2 p k) (ix2 r k) hi0 rfl
  · exact fun k => blk0_1 V c t (ix2 p k) (ix2 r k) hi0 rfl
  · exact fun k => blk0_2 V c t (ix2 k s)
  · exact fun k => blk0_4 V c t (ix2 k s)
  · refine (blk0_3 V c t (ix2 (0 : Fin 1) s)).trans ?_
    rw [hb]
    exact shapeCast_a_1a_apply b shapeCasts_S128_S1x128 0 s

/-- WHAT TILE `t` WRITES BACK is block `t` of the whole update. -/
theorem flushed0_eq (c : Dev nD) (b : (⟨Cert.ReferenceIdeal.S128, .f32⟩ : BufTy).Contents (Elt Ideal))
    (hb : (V c main_v16 : S1x128.Idx → EReal) = shapeCast S1x128 b shapeCasts_S128_S1x128) (t : Fin cfg0.N) :
    (dat0 V c).flushed 5 t = ((cfg0.win 5).blk t).view.read (Elt Ideal)
      (Cert.ReferenceIdeal.Net.updOf (F := Ideal) (V c main_v13) (V c main_arg0) (V c main_v18) b (V c main_v20)) := by
  obtain ⟨-, -, -, -, -, -, -, -, -, -, e0, e1⟩ := idx_facts0 t
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S1x128) hz2]
  funext j
  rw [View.read_apply]
  refine point0 V c b hb t j _ ?_ ?_
  · show win0_5.index t (0 : Fin 2) * 5000 + 1 * (j 0).val = t.val * 5000 + (j 0).val
    rw [e0]; omega
  · show win0_5.index t (1 : Fin 2) * 128 + 1 * (j 1).val = (j 1).val
    rw [e1]; omega

/-- An index of the output array is in tile `t`'s block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v21).slice (win0_5.rect t)).set ↔ _
  rw [View.set_slice_whole, Rect.mem_set_unit]
  exact Iff.rfl

/-- Every node's row is in the tile numbered (row / 5000). -/
theorem cover0 (i : S50000x128.Idx) :
    ∃ t : Fin cfg0.N, (cfg0.win 5).flush t = true ∧ i ∈ ((cfg0.win 5).blk t).view.set := by
  have hi0 : (i 0).val < 50000 := idx2_lt0 i
  have hi1 : (i 1).val < 128 := idx2_lt1 i
  have hN : cfg0.N = 10 := N_0
  refine ⟨⟨(i 0).val / 5000, by rw [hN]; omega⟩, flush0_5 _, ?_⟩
  obtain ⟨-, -, -, -, -, -, -, -, -, -, e0, e1⟩ := idx_facts0 ⟨(i 0).val / 5000, by rw [hN]; omega⟩
  rw [mem_blk0]
  intro a
  match a with
  | ⟨0, _⟩ =>
    show win0_5.index ⟨(i 0).val / 5000, _⟩ (0 : Fin 2) * 5000 ≤ (i 0).val ∧ (i 0).val < win0_5.index ⟨(i 0).val / 5000, _⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, _⟩ (1 : Fin 2) * 128 ≤ (i 1).val ∧ (i 1).val < win0_5.index ⟨(i 0).val / 5000, _⟩ (1 : Fin 2) * 128 + 128
    rw [e1]
    omega

/-- THE OUTPUT ARRAY after the launch is the whole update of the arrays the launch found. -/
theorem final0 (c : Dev nD) (b : (⟨Cert.ReferenceIdeal.S128, .f32⟩ : BufTy).Contents (Elt Ideal))
    (hb : (V c main_v16 : S1x128.Idx → EReal) = shapeCast S1x128 b shapeCasts_S128_S1x128) :
    (dat0 V c).arrAt 5 cfg0.N
      = Cert.ReferenceIdeal.Net.updOf (F := Ideal) (V c main_v13) (V c main_arg0) (V c main_v18) b (V c main_v20) :=
  (dat0 V c).arrAt_eq_of_cover 5 _ (fun t _ => flushed0_eq V c b hb t) (fun i => cover0 i)

end Cert.KernelIdeal.Whole

end
-- ==== Proof.Region1.lean ====
/-
  The second update's kernel launch, read as a value.

  The launch walks ten tiles of 5000 nodes. At tile t its body loads rows 5000 t … 5000 t + 4999 of the neighbourhood
  sums and of the node features, the two 128 x 128 weight matrices whole and the 1 x 128 bias row, and stores
  max (sums · w + features · wr + bias, 0) over the tile's rows of the output. Each tile's result is the same rows of
  ONE whole-array function — the host's spelling of the update, `updOf`, of the arrays as the launch finds them — and the
  ten tiles cover all 50000 rows, so the output array ends holding that function.
-/
import proofs.«147184_j32839319945735_1_alg».proof.Proof.Gen.KernelIdeal.Frame
import proofs.«147184_j32839319945735_1_alg».proof.Proof.KernelDots
import proofs.«147184_j32839319945735_1_alg».proof.Proof.NetAt

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The body's stored value at row `p` of the tile and feature `q`, from its five loaded blocks. -/
theorem pay1_apply (v0 v3 : Vec Ideal S5000x128 .f32) (v5 v8 : Vec Ideal S128x128 .f32) (v14 : Vec Ideal S1x128 .f32)
    (p : Fin 5000) (q : Fin 128) :
    k1_pay1 (F := Ideal) v0 v3 v5 v8 v14 (ix2 p q) = updAt v0 v3 v5 v8 (fun c => v14 (ix2 (0 : Fin 1) c)) p q := by
  unfold k1_pay1
  simp only [shapeCast_self]
  exact tile_update_apply plain_tile bitsLt_bf16_f32 v0 v3 v5 v8 v14 broadcasts_S1x128_S5000x128 p q

/-- The printed index maps over the ten tiles: the two row-tiled inputs and the output sit at tile `t`, the weights and
    the bias row at their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Tile `t` of the neighbourhood sums is their rows from 5000 t on. -/
theorem blk1_0 (c : Dev nD) (t : Fin cfg1.N) (x : S5000x128.Idx) (k : S50000x128.Idx)
    (hk0 : (k 0).val = t.val * 5000 + (x 0).val) (hk1 : (k 1).val = (x 1).val) :
    (iblk1 V c 0 t : Vec Ideal S5000x128 .f32) x = (V c main_v31 : S50000x128.Idx → EReal) k := by
  obtain ⟨e0, e1, -⟩ := idx_facts1 t
  unfold iblk1
  rw [View.read_apply]
  show (V c main_v31 : S50000x128.Idx → EReal) _ = _
  refine congrArg (V c main_v31 : S50000x128.Idx → EReal) ?_
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 128 + 1 * (x 1).val = (k 1).val; rw [e1, hk1]; omega

/-- Tile `t` of the node features is their rows from 5000 t on. -/
theorem blk1_1 (c : Dev nD) (t : Fin cfg1.N) (x : S5000x128.Idx) (k : S50000x128.Idx)
    (hk0 : (k 0).val = t.val * 5000 + (x 0).val) (hk1 : (k 1).val = (x 1).val) :
    (iblk1 V c 1 t : Vec Ideal S5000x128 .f32) x = (V c main_v21 : S50000x128.Idx → EReal) k := by
  obtain ⟨-, -, e0, e1, -⟩ := idx_facts1 t
  unfold iblk1
  rw [View.read_apply]
  show (V c main_v21 : S50000x128.Idx → EReal) _ = _
  refine congrArg (V c main_v21 : S50000x128.Idx → EReal) ?_
  funext a
  apply Fin.ext
  match a with
  | ⟨0, _⟩ => show win1_1.index t (0 : Fin 2) * 5000 + 1 * (x 0).val = (k 0).val; rw [e0, hk0]; omega
  | ⟨1, _⟩ => show win1_1.index t (1 : Fin 2) * 128 + 1 * (x 1).val = (k 1).val; rw [e1, hk1]; omega

/-- The first weight matrix's one block is the matrix. -/
theorem blk1_2 (c : Dev nD) (t : Fin cfg1.N) (x : S128x128.Idx) :
    (iblk1 V c 2 t : Vec Ideal S128x128 .f32) x = (V c main_v36 : S128x128.Idx → EReal) x := by
  obtain ⟨-, -, -, -, e0, e1, -⟩ := idx_facts1 t
  unfold iblk1
  rw [View.read_apply]
  show (V c main_v36 : S128x128.Idx → EReal) _ = _
  refine congrArg (V c main_v36 : S128x128.Idx → EReal) ?_
  funext a
  apply Fin.ext
  match a with
  | ⟨0, _⟩ => show win1_2.index t (0 : Fin 2) * 128 + 1 * (x 0).val = (x 0).val; rw [e0]; omega
  | ⟨1, _⟩ => show win1_2.index t (1 : Fin 2) * 128 + 1 * (x 1).val = (x 1).val; rw [e1]; omega

/-- The bias row's one block is the row. -/
theorem blk1_3 (c : Dev nD) (t : Fin cfg1.N) (x : S1x128.Idx) :
    (iblk1 V c 3 t : Vec Ideal S1x128 .f32) x = (V c main_v34 : S1x128.Idx → EReal) x := by
  obtain ⟨-, -, -, -, -, -, e0, e1, -⟩ := idx_facts1 t
  unfold iblk1
  rw [View.read_apply]
  show (V c main_v34 : S1x128.Idx → EReal) _ = _
  refine congrArg (V c main_v34 : S1x128.Idx → EReal) ?_
  funext a
  apply Fin.ext
  match a with
  | ⟨0, _⟩ => show win1_3.index t (0 : Fin 2) * 1 + 1 * (x 0).val = (x 0).val; rw [e0]; omega
  | ⟨1, _⟩ => show win1_3.index t (1 : Fin 2) * 128 + 1 * (x 1).val = (x 1).val; rw [e1]; omega

/-- The second weight matrix's one block is the matrix. -/
theorem blk1_4 (c : Dev nD) (t : Fin cfg1.N) (x : S128x128.Idx) :
    (iblk1 V c 4 t : Vec Ideal S128x128 .f32) x = (V c main_v38 : S128x128.Idx → EReal) x := by
  obtain ⟨-, -, -, -, -, -, -, -, e0, e1, -⟩ := idx_facts1 t
  unfold iblk1
  rw [View.read_apply]
  show (V c main_v38 : S128x128.Idx → EReal) _ = _
  refine congrArg (V c main_v38 : S128x128.Idx → EReal) ?_
  funext a
  apply Fin.ext
  match a with
  | ⟨0, _⟩ => show win1_4.index t (0 : Fin 2) * 128 + 1 * (x 0).val = (x 0).val; rw [e0]; omega
  | ⟨1, _⟩ => show win1_4.index t (1 : Fin 2) * 128 + 1 * (x 1).val = (x 1).val; rw [e1]; omega

/-- AT ONE ELEMENT: what tile `t`'s body stores at `j` is the whole update at the node 5000 t + (j's row), when the bias
    row the launch finds is the bias vector `b` recast as a row. -/
theorem point1 (c : Dev nD) (b : (⟨Cert.ReferenceIdeal.S128, .f32⟩ : BufTy).Contents (Elt Ideal))
    (hb : (V c main_v34 : S1x128.Idx → EReal) = shapeCast S1x128 b shapeCasts_S128_S1x128)
    (t : Fin cfg1.N) (j : S5000x128.Idx) (i : S50000x128.Idx)
    (hi0 : (i 0).val = t.val * 5000 + (j 0).val) (hi1 : (i 1).val = (j 1).val) :
    k1_pay1 (F := Ideal) (iblk1 V c 0 t) (iblk1 V c 1 t) (iblk1 V c 2 t) (iblk1 V c 4 t) (iblk1 V c 3 t) j
      = Cert.ReferenceIdeal.Net.updOf (F := Ideal) (V c main_v31) (V c main_v21) (V c main_v36) b (V c main_v38) i := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  obtain rfl : s = q := Fin.ext hi1
  refine (pay1_apply (iblk1 V c 0 t) (iblk1 V c 1 t) (iblk1 V c 2 t) (iblk1 V c 4 t) (iblk1 V c 3 t) p s).trans ?_
  refine Cert.ReferenceIdeal.Net.tile_eq_rows (iblk1 V c 0 t) (iblk1 V c 1 t) (iblk1 V c 2 t) (iblk1 V c 4 t) (iblk1 V c 3 t)
    (V c main_v31) (V c main_v21) (V c main_v36) (V c main_v38) b p s r ?_ ?_ ?_ ?_ ?_
  · exact fun k => blk1_0 V c t (ix2 p k) (ix2 r k) hi0 rfl
  · exact fun k => blk1_1 V c t (ix2 p k) (ix2 r k) hi0 rfl
  · exact fun k => blk1_2 V c t (ix2 k s)
  · exact fun k => blk1_4 V c t (ix2 k s)
  · refine (blk1_3 V c t (ix2 (0 : Fin 1) s)).trans ?_
    rw [hb]
    exact shapeCast_a_1a_apply b shapeCasts_S128_S1x128 0 s

/-- WHAT TILE `t` WRITES BACK is block `t` of the whole update. -/
theorem flushed1_eq (c : Dev nD) (b : (⟨Cert.ReferenceIdeal.S128, .f32⟩ : BufTy).Contents (Elt Ideal))
    (hb : (V c main_v34 : S1x128.Idx → EReal) = shapeCast S1x128 b shapeCasts_S128_S1x128) (t : Fin cfg1.N) :
    (dat1 V c).flushed 5 t = ((cfg1.win 5).blk t).view.read (Elt Ideal)
      (Cert.ReferenceIdeal.Net.updOf (F := Ideal) (V c main_v31) (V c main_v21) (V c main_v36) b (V c main_v38)) := by
  obtain ⟨-, -, -, -, -, -, -, -, -, -, e0, e1⟩ := idx_facts1 t
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S1x128) hz2]
  funext j
  rw [View.read_apply]
  refine point1 V c b hb t j _ ?_ ?_
  · show win1_5.index t (0 : Fin 2) * 5000 + 1 * (j 0).val = t.val * 5000 + (j 0).val
    rw [e0]; omega
  · show win1_5.index t (1 : Fin 2) * 128 + 1 * (j 1).val = (j 1).val
    rw [e1]; omega

/-- An index of the output array is in tile `t`'s block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v39).slice (win1_5.rect t)).set ↔ _
  rw [View.set_slice_whole, Rect.mem_set_unit]
  exact Iff.rfl

/-- Every node's row is in the tile numbered (row / 5000). -/
theorem cover1 (i : S50000x128.Idx) :
    ∃ t : Fin cfg1.N, (cfg1.win 5).flush t = true ∧ i ∈ ((cfg1.win 5).blk t).view.set := by
  have hi0 : (i 0).val < 50000 := idx2_lt0 i
  have hi1 : (i 1).val < 128 := idx2_lt1 i
  have hN : cfg1.N = 10 := N_1
  refine ⟨⟨(i 0).val / 5000, by rw [hN]; omega⟩, flush1_5 _, ?_⟩
  obtain ⟨-, -, -, -, -, -, -, -, -, -, e0, e1⟩ := idx_facts1 ⟨(i 0).val / 5000, by rw [hN]; omega⟩
  rw [mem_blk1]
  intro a
  match a with
  | ⟨0, _⟩ =>
    show win1_5.index ⟨(i 0).val / 5000, _⟩ (0 : Fin 2) * 5000 ≤ (i 0).val ∧ (i 0).val < win1_5.index ⟨(i 0).val / 5000, _⟩ (0 : Fin 2) * 5000 + 5000
    rw [e0]
    show (i 0).val / 5000 * 5000 ≤ (i 0).val ∧ (i 0).val < (i 0).val / 5000 * 5000 + 5000
    omega
  | ⟨1, _⟩ =>
    show win1_5.index ⟨(i 0).val / 5000, _⟩ (1 : Fin 2) * 128 ≤ (i 1).val ∧ (i 1).val < win1_5.index ⟨(i 0).val / 5000, _⟩ (1 : Fin 2) * 128 + 128
    rw [e1]
    omega

/-- THE OUTPUT ARRAY after the launch is the whole update of the arrays the launch found. -/
theorem final1 (c : Dev nD) (b : (⟨Cert.ReferenceIdeal.S128, .f32⟩ : BufTy).Contents (Elt Ideal))
    (hb : (V c main_v34 : S1x128.Idx → EReal) = shapeCast S1x128 b shapeCasts_S128_S1x128) :
    (dat1 V c).arrAt 5 cfg1.N
      = Cert.ReferenceIdeal.Net.updOf (F := Ideal) (V c main_v31) (V c main_v21) (V c main_v36) b (V c main_v38) :=
  (dat1 V c).arrAt_eq_of_cover 5 _ (fun t _ => flushed1_eq V c b hb t) (fun i => cover1 i)

end Cert.KernelIdeal.Whole

end
-- ==== Proof.Region2.lean ====
/-
  The third update's kernel launch, read as a value.

  The launch walks ten tiles of 5000 nodes. At tile t its body loads rows 5000 t … 5000 t + 4999 of the neighbourhood
  sums and of the node features, the two 128 x 128 weight matrices whole and the 1 x 128 bias row, and stores
  max (sums · w + features · wr + bias, 0) over the tile's rows of the output. Each tile's result is the same rows of
  ONE whole-array function — the host's spelling of the update, `updOf`, of the arrays as the launch finds them — and the
  ten tiles cover all 50000 rows, so the output array ends holding that function.
-/
import proofs.«147184_j32839319945735_1_alg».proof.Proof.Gen.KernelIdeal.Frame
import proofs.«147184_j32839319945735_1_alg».proof.Proof.KernelDots
import proofs.«147184_j32839319945735_1_alg».proof.Proof.NetAt

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The body's stored value at row `p` of the tile and feature `q`, from its five loaded blocks. -/
theorem pay2_apply (v0 v3 : Vec Ideal S5000x128 .f32) (v5 v8 : Vec Ideal S128x128 .f32) (v14 : Vec Ideal S1x128 .f32)
    (p : Fin 5000) (q : Fin 128) :
    k2_pay1 (F := Ideal) v0 v3 v5 v8 v14 (ix2 p q) = updAt v0 v3 v5 v8 (fun c => v14 (ix2 (0 : Fin 1) c)) p q := by
  unfold k2_pay1
  simp only [shapeCast_self]
  exact tile_update_apply plain_tile bitsLt_bf16_f32 v0 v3 v5 v8 v14 broadcasts_S1x128_S5000x128 p q

/-- The printed index maps over the ten tiles: the two row-tiled inputs and the output sit at tile `t`, the weights and
    the bias row at their one block. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Tile `t` of the neighbourhood sums is their rows from 5000 t on. -/
theorem blk2_0 (c : Dev nD) (t : Fin cfg2.N) (x : S5000x128.Idx) (k : S50000x128.Idx)
    (hk0 : (k 0).val = t.val * 5000 + (x 0).val) (hk1 : (k 1).val = (x 1).val) :
    (iblk2 V c 0 t : Vec Ideal S5000x128 .f32) x = (V c main_v49 : S50000x128.Idx → EReal) k := by
  obtain ⟨e0, e1, -⟩ := idx_facts2 t
  unfold iblk2
  rw [View.read_apply]
  show (V c main_v49 : S50000x128.Idx → EReal) _ = _
  refine congrArg (V c main_v49 : S50000x128.Idx → EReal) ?_
  funext a
  apply Fin.ext
  match a with
  | ⟨0, _⟩ => show win2_0.index t (0 : Fin 2) * 5000 + 1 * (x 0).val = (k 0).val; rw [e0, hk0]; omega
  | ⟨1, _⟩ => show win2_0.index t (1 : Fin 2) * 128 + 1 * (x 1).val = (k 1).val; rw [e1, hk1]; omega

/-- Tile `t` of the node features is their rows from 5000 t on. -/
theorem blk2_1 (c : Dev nD) (t : Fin cfg2.N) (x : S5000x128.Idx) (k : S50000x128.Idx)
    (hk0 : (k 0).val = t.val * 5000 + (x 0).val) (hk1 : (k 1).val = (x 1).val) :
    (iblk2 V c 1 t : Vec Ideal S5000x128 .f32) x = (V c main_v39 : S50000x128.Idx → EReal) k := by
  obtain ⟨-, -, e0, e1, -⟩ := idx_facts2 t
  unfold iblk2
  rw [View.read_apply]
  show (V c main_v39 : S50000x128.Idx → EReal) _ = _
  refine congrArg (V c main_v39 : S50000x128.Idx → EReal) ?_
  funext a
  apply Fin.ext
  match a with
  | ⟨0, _⟩ => show win2_1.index t (0 : Fin 2) * 5000 + 1 * (x 0).val = (k 0).val; rw [e0, hk0]; omega
  | ⟨1, _⟩ => show win2_1.index t (1 : Fin 2) * 128 + 1 * (x 1).val = (k 1).val; rw [e1, hk1]; omega

/-- The first weight matrix's one block is the matrix. -/
theorem blk2_2 (c : Dev nD) (t : Fin cfg2.N) (x : S128x128.Idx) :
    (iblk2 V c 2 t : Vec Ideal S128x128 .f32) x = (V c main_v54 : S128x128.Idx → EReal) x := by
  obtain ⟨-, -, -, -, e0, e1, -⟩ := idx_facts2 t
  unfold iblk2
  rw [View.read_apply]
  show (V c main_v54 : S128x128.Idx → EReal) _ = _
  refine congrArg (V c main_v54 : S128x128.Idx → EReal) ?_
  funext a
  apply Fin.ext
  match a with
  | ⟨0, _⟩ => show win2_2.index t (0 : Fin 2) * 128 + 1 * (x 0).val = (x 0).val; rw [e0]; omega
  | ⟨1, _⟩ => show win2_2.index t (1 : Fin 2) * 128 + 1 * (x 1).val = (x 1).val; rw [e1]; omega

/-- The bias row's one block is the row. -/
theorem blk2_3 (c : Dev nD) (t : Fin cfg2.N) (x : S1x128.Idx) :
    (iblk2 V c 3 t : Vec Ideal S1x128 .f32) x = (V c main_v52 : S1x128.Idx → EReal) x := by
  obtain ⟨-, -, -, -, -, -, e0, e1, -⟩ := idx_facts2 t
  unfold iblk2
  rw [View.read_apply]
  show (V c main_v52 : S1x128.Idx → EReal) _ = _
  refine congrArg (V c main_v52 : S1x128.Idx → EReal) ?_
  funext a
  apply Fin.ext
  match a with
  | ⟨0, _⟩ => show win2_3.index t (0 : Fin 2) * 1 + 1 * (x 0).val = (x 0).val; rw [e0]; omega
  | ⟨1, _⟩ => show win2_3.index t (1 : Fin 2) * 128 + 1 * (x 1).val = (x 1).val; rw [e1]; omega

/-- The second weight matrix's one block is the matrix. -/
theorem blk2_4 (c : Dev nD) (t : Fin cfg2.N) (x : S128x128.Idx) :
    (iblk2 V c 4 t : Vec Ideal S128x128 .f32) x = (V c main_v56 : S128x128.Idx → EReal) x := by
  obtain ⟨-, -, -, -, -, -, -, -, e0, e1, -⟩ := idx_facts2 t
  unfold iblk2
  rw [View.read_apply]
  show (V c main_v56 : S128x128.Idx → EReal) _ = _
  refine congrArg (V c main_v56 : S128x128.Idx → EReal) ?_
  funext a
  apply Fin.ext
  match a with
  | ⟨0, _⟩ => show win2_4.index t (0 : Fin 2) * 128 + 1 * (x 0).val = (x 0).val; rw [e0]; omega
  | ⟨1, _⟩ => show win2_4.index t (1 : Fin 2) * 128 + 1 * (x 1).val = (x 1).val; rw [e1]; omega

/-- AT ONE ELEMENT: what tile `t`'s body stores at `j` is the whole update at the node 5000 t + (j's row), when the bias
    row the launch finds is the bias vector `b` recast as a row. -/
theorem point2 (c : Dev nD) (b : (⟨Cert.ReferenceIdeal.S128, .f32⟩ : BufTy).Contents (Elt Ideal))
    (hb : (V c main_v52 : S1x128.Idx → EReal) = shapeCast S1x128 b shapeCasts_S128_S1x128)
    (t : Fin cfg2.N) (j : S5000x128.Idx) (i : S50000x128.Idx)
    (hi0 : (i 0).val = t.val * 5000 + (j 0).val) (hi1 : (i 1).val = (j 1).val) :
    k2_pay1 (F := Ideal) (iblk2 V c 0 t) (iblk2 V c 1 t) (iblk2 V c 2 t) (iblk2 V c 4 t) (iblk2 V c 3 t) j
      = Cert.ReferenceIdeal.Net.updOf (F := Ideal) (V c main_v49) (V c main_v39) (V c main_v54) b (V c main_v56) i := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  obtain rfl : s = q := Fin.ext hi1
  refine (pay2_apply (iblk2 V c 0 t) (iblk2 V c 1 t) (iblk2 V c 2 t) (iblk2 V c 4 t) (iblk2 V c 3 t) p s).trans ?_
  refine Cert.ReferenceIdeal.Net.tile_eq_rows (iblk2 V c 0 t) (iblk2 V c 1 t) (iblk2 V c 2 t) (iblk2 V c 4 t) (iblk2 V c 3 t)
    (V c main_v49) (V c main_v39) (V c main_v54) (V c main_v56) b p s r ?_ ?_ ?_ ?_ ?_
  · exact fun k => blk2_0 V c t (ix2 p k) (ix2 r k) hi0 rfl
  · exact fun k => blk2_1 V c t (ix2 p k) (ix2 r k) hi0 rfl
  · exact fun k => blk2_2 V c t (ix2 k s)
  · exact fun k => blk2_4 V c t (ix2 k s)
  · refine (blk2_3 V c t (ix2 (0 : Fin 1) s)).trans ?_
    rw [hb]
    exact shapeCast_a_1a_apply b shapeCasts_S128_S1x128 0 s

/-- WHAT TILE `t` WRITES BACK is block `t` of the whole update. -/
theorem flushed2_eq (c : Dev nD) (b : (⟨Cert.ReferenceIdeal.S128, .f32⟩ : BufTy).Contents (Elt Ideal))
    (hb : (V c main_v52 : S1x128.Idx → EReal) = shapeCast S1x128 b shapeCasts_S128_S1x128) (t : Fin cfg2.N) :
    (dat2 V c).flushed 5 t = ((cfg2.win 5).blk t).view.read (Elt Ideal)
      (Cert.ReferenceIdeal.Net.updOf (F := Ideal) (V c main_v49) (V c main_v39) (V c main_v54) b (V c main_v56)) := by
  obtain ⟨-, -, -, -, -, -, -, -, -, -, e0, e1⟩ := idx_facts2 t
  show (cfg2.win 5).cut (grid2.coords t) ((dat2 V c).after 5 t) = _
  rw [after2_5]
  unfold out2_5
  rw [View.canon_unit_zero hz2]
  simp only [View.ld_unit_zero (S := S5000x128) hz2, View.ld_unit_zero (S := S128x128) hz2, View.ld_unit_zero (S := S1x128) hz2]
  funext j
  rw [View.read_apply]
  refine point2 V c b hb t j _ ?_ ?_
  · show win2_5.index t (0 : Fin 2) * 5000 + 1 * (j 0).val = t.val * 5000 + (j 0).val
    rw [e0]; omega
  · show win2_5.index t (1 : Fin 2) * 128 + 1 * (j 1).val = (j 1).val
    rw [e1]; omega

/-- An index of the output array is in tile `t`'s block iff each coordinate is in the block's range on its axis. -/
theorem mem_blk2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v57).slice (win2_5.rect t)).set ↔ _
  rw [View.set_slice_whole, Rect.mem_set_unit]
  exact Iff.rfl

/-- Every node's row is in the tile numbered (row / 5000). -/
theorem cover2 (i : S50000x128.Idx) :
    ∃ t : Fin cfg2.N, (cfg2.win 5).flush t = true ∧ i ∈ ((cfg2.win 5).blk t).view.set := by
  have hi0 : (i 0).val < 50000 := idx2_lt0 i
  have hi1 : (i 1).val < 128 := idx2_lt1 i
  have hN : cfg2.N = 10 := N_2
  refine ⟨⟨(i 0).val / 5000, by rw [hN]; omega⟩, flush2_5 _, ?_⟩
  obtain ⟨-, -, -, -, -, -, -, -, -, -, e0, e1⟩ := idx_facts2 ⟨(i 0).val / 5000, by rw [hN]; omega⟩
  rw [mem_blk2]
  intro a
  match a with
  | ⟨0, _⟩ =>
    show win2_5.index ⟨(i 0).val / 5000, _⟩ (0 : Fin 2) * 5000 ≤ (i 0).val ∧ (i 0).val < win2_5.index ⟨(i 0).val / 5000, _⟩ (0 : Fin 2) * 5000 + 5000
    rw [e0]
    show (i 0).val / 5000 * 5000 ≤ (i 0).val ∧ (i 0).val < (i 0).val / 5000 * 5000 + 5000
    omega
  | ⟨1, _⟩ =>
    show win2_5.index ⟨(i 0).val / 5000, _⟩ (1 : Fin 2) * 128 ≤ (i 1).val ∧ (i 1).val < win2_5.index ⟨(i 0).val / 5000, _⟩ (1 : Fin 2) * 128 + 128
    rw [e1]
    omega

/-- THE OUTPUT ARRAY after the launch is the whole update of the arrays the launch found. -/
theorem final2 (c : Dev nD) (b : (⟨Cert.ReferenceIdeal.S128, .f32⟩ : BufTy).Contents (Elt Ideal))
    (hb : (V c main_v52 : S1x128.Idx → EReal) = shapeCast S1x128 b shapeCasts_S128_S1x128) :
    (dat2 V c).arrAt 5 cfg2.N
      = Cert.ReferenceIdeal.Net.updOf (F := Ideal) (V c main_v49) (V c main_v39) (V c main_v54) b (V c main_v56) :=
  (dat2 V c).arrAt_eq_of_cover 5 _ (fun t _ => flushed2_eq V c b hb t) (fun i => cover2 i)

end Cert.KernelIdeal.Whole

end
-- ==== Proof.Region3.lean ====
/-
  The head's kernel launch, read as a value.

  The launch has one grid point. Its body loads the pooled 128 x 128 features, the two weight matrices and the two
  bias rows whole, and stores (pooled · w1 + b1) · w2 + b2 over the whole 128 x 16 output. That is the host's spelling
  of the head, `headOf`, of the arrays as the launch finds them, the bias rows being the bias vectors recast as rows.
-/
import proofs.«147184_j32839319945735_1_alg».proof.Proof.Gen.KernelIdeal.Frame
import proofs.«147184_j32839319945735_1_alg».proof.Proof.KernelDots
import proofs.«147184_j32839319945735_1_alg».proof.Proof.NetAt

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The body's stored value at graph `p` and output `q`, from its five loaded blocks. -/
theorem pay3_apply (v0 v3 : Vec Ideal S128x128 .f32) (v6 : Vec Ideal S1x128 .f32) (v11 : Vec Ideal S128x16 .f32)
    (v14 : Vec Ideal S1x16 .f32) (p : Fin 128) (q : Fin 16) :
    k3_pay1 (F := Ideal) v0 v3 v6 v11 v14 (ix2 p q)
      = headAt v0 v3 (fun j => v6 (ix2 (0 : Fin 1) j)) v11 (fun c => v14 (ix2 (0 : Fin 1) c)) p q := by
  unfold k3_pay1
  simp only [shapeCast_self]
  exact tile_head_apply plain_hidden plain_out bitsLt_bf16_f32 v0 v3 v6 broadcasts_S1x128_S128x128 v11 v14
    broadcasts_S1x16_S128x16 p q

/-- The printed index maps at the one grid point: every window sits at its one block. -/
theorem idx_facts3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- The pooled features' one block is the array. -/
theorem blk3_0 (c : Dev nD) (t : Fin cfg3.N) (x : S128x128.Idx) :
    (iblk3 V c 0 t : Vec Ideal S128x128 .f32) x = (V c main_v69 : S128x128.Idx → EReal) x := by
  obtain ⟨e0, e1, -⟩ := idx_facts3 t
  unfold iblk3
  rw [View.read_apply]
  show (V c main_v69 : S128x128.Idx → EReal) _ = _
  refine congrArg (V c main_v69 : S128x128.Idx → EReal) ?_
  funext a
  apply Fin.ext
  match a with
  | ⟨0, _⟩ => show win3_0.index t (0 : Fin 2) * 128 + 1 * (x 0).val = (x 0).val; rw [e0]; omega
  | ⟨1, _⟩ => show win3_0.index t (1 : Fin 2) * 128 + 1 * (x 1).val = (x 1).val; rw [e1]; omega

/-- The first weight matrix's one block is the matrix. -/
theorem blk3_1 (c : Dev nD) (t : Fin cfg3.N) (x : S128x128.Idx) :
    (iblk3 V c 1 t : Vec Ideal S128x128 .f32) x = (V c main_arg6 : S128x128.Idx → EReal) x := by
  obtain ⟨-, -, e0, e1, -⟩ := idx_facts3 t
  unfold iblk3
  rw [View.read_apply]
  show (V c main_arg6 : S128x128.Idx → EReal) _ = _
  refine congrArg (V c main_arg6 : S128x128.Idx → EReal) ?_
  funext a
  apply Fin.ext
  match a with
  | ⟨0, _⟩ => show win3_1.index t (0 : Fin 2) * 128 + 1 * (x 0).val = (x 0).val; rw [e0]; omega
  | ⟨1, _⟩ => show win3_1.index t (1 : Fin 2) * 128 + 1 * (x 1).val = (x 1).val; rw [e1]; omega

/-- The first bias row's one block is the row. -/
theorem blk3_2 (c : Dev nD) (t : Fin cfg3.N) (x : S1x128.Idx) :
    (iblk3 V c 2 t : Vec Ideal S1x128 .f32) x = (V c main_v70 : S1x128.Idx → EReal) x := by
  obtain ⟨-, -, -, -, e0, e1, -⟩ := idx_facts3 t
  unfold iblk3
  rw [View.read_apply]
  show (V c main_v70 : S1x128.Idx → EReal) _ = _
  refine congrArg (V c main_v70 : S1x128.Idx → EReal) ?_
  funext a
  apply Fin.ext
  match a with
  | ⟨0, _⟩ => show win3_2.index t (0 : Fin 2) * 1 + 1 * (x 0).val = (x 0).val; rw [e0]; omega
  | ⟨1, _⟩ => show win3_2.index t (1 : Fin 2) * 128 + 1 * (x 1).val = (x 1).val; rw [e1]; omega

/-- The second weight matrix's one block is the matrix. -/
theorem blk3_3 (c : Dev nD) (t : Fin cfg3.N) (x : S128x16.Idx) :
    (iblk3 V c 3 t : Vec Ideal S128x16 .f32) x = (V c main_arg8 : S128x16.Idx → EReal) x := by
  obtain ⟨-, -, -, -, -, -, e0, e1, -⟩ := idx_facts3 t
  unfold iblk3
  rw [View.read_apply]
  show (V c main_arg8 : S128x16.Idx → EReal) _ = _
  refine congrArg (V c main_arg8 : S128x16.Idx → EReal) ?_
  funext a
  apply Fin.ext
  match a with
  | ⟨0, _⟩ => show win3_3.index t (0 : Fin 2) * 128 + 1 * (x 0).val = (x 0).val; rw [e0]; omega
  | ⟨1, _⟩ => show win3_3.index t (1 : Fin 2) * 16 + 1 * (x 1).val = (x 1).val; rw [e1]; omega

/-- The second bias row's one block is the row. -/
theorem blk3_4 (c : Dev nD) (t : Fin cfg3.N) (x : S1x16.Idx) :
    (iblk3 V c 4 t : Vec Ideal S1x16 .f32) x = (V c main_v71 : S1x16.Idx → EReal) x := by
  obtain ⟨-, -, -, -, -, -, -, -, e0, e1, -⟩ := idx_facts3 t
  unfold iblk3
  rw [View.read_apply]
  show (V c main_v71 : S1x16.Idx → EReal) _ = _
  refine congrArg (V c main_v71 : S1x16.Idx → EReal) ?_
  funext a
  apply Fin.ext
  match a with
  | ⟨0, _⟩ => show win3_4.index t (0 : Fin 2) * 1 + 1 * (x 0).val = (x 0).val; rw [e0]; omega
  | ⟨1, _⟩ => show win3_4.index t (1 : Fin 2) * 16 + 1 * (x 1).val = (x 1).val; rw [e1]; omega

/-- AT ONE ELEMENT: what the body stores at `j` is the head at the same graph and output, when the bias rows the launch
    finds are the bias vectors `b1`, `b2` recast as rows. -/
theorem point3 (c : Dev nD) (b1 : (⟨Cert.ReferenceIdeal.S128, .f32⟩ : BufTy).Contents (Elt Ideal))
    (b2 : (⟨Cert.ReferenceIdeal.S16, .f32⟩ : BufTy).Contents (Elt Ideal))
    (hb1 : (V c main_v70 : S1x128.Idx → EReal) = shapeCast S1x128 b1 shapeCasts_S128_S1x128)
    (hb2 : (V c main_v71 : S1x16.Idx → EReal) = shapeCast S1x16 b2 shapeCasts_S16_S1x16)
    (t : Fin cfg3.N) (j : S128x16.Idx) (i : S128x16.Idx) (hi : i = j) :
    k3_pay1 (F := Ideal) (iblk3 V c 0 t) (iblk3 V c 1 t) (iblk3 V c 2 t) (iblk3 V c 3 t) (iblk3 V c 4 t) j
      = Cert.ReferenceIdeal.Net.headOf (F := Ideal) (V c main_v69) (V c main_arg6) b1 (V c main_arg8) b2 i := by
  subst hi
  obtain ⟨p, q, rfl⟩ : ∃ (p : Fin 128) (q : Fin 16), i = ix2 p q := ⟨i 0, i 1, eq_ix2 i⟩
  refine (pay3_apply (iblk3 V c 0 t) (iblk3 V c 1 t) (iblk3 V c 2 t) (iblk3 V c 3 t) (iblk3 V c 4 t) p q).trans ?_
  refine Cert.ReferenceIdeal.Net.tile_eq_head (iblk3 V c 0 t) (iblk3 V c 1 t) (iblk3 V c 2 t) (iblk3 V c 3 t) (iblk3 V c 4 t)
    (V c main_v69) (V c main_arg6) b1 (V c main_arg8) b2 p q ?_ ?_ ?_ ?_ ?_
  · exact fun k => blk3_0 V c t (ix2 p k)
  · exact fun k j => blk3_1 V c t (ix2 k j)
  · intro j
    refine (blk3_2 V c t (ix2 (0 : Fin 1) j)).trans ?_
    rw [hb1]
    exact shapeCast_a_1a_apply b1 shapeCasts_S128_S1x128 0 j
  · exact fun j => blk3_3 V c t (ix2 j q)
  · refine (blk3_4 V c t (ix2 (0 : Fin 1) q)).trans ?_
    rw [hb2]
    exact shapeCast_a_1a_apply b2 shapeCasts_S16_S1x16 0 q

/-- WHAT THE ONE POINT WRITES BACK is the one block of the head. -/
theorem flushed3_eq (c : Dev nD) (b1 : (⟨Cert.ReferenceIdeal.S128, .f32⟩ : BufTy).Contents (Elt Ideal))
    (b2 : (⟨Cert.ReferenceIdeal.S16, .f32⟩ : BufTy).Contents (Elt Ideal))
    (hb1 : (V c main_v70 : S1x128.Idx → EReal) = shapeCast S1x128 b1 shapeCasts_S128_S1x128)
    (hb2 : (V c main_v71 : S1x16.Idx → EReal) = shapeCast S1x16 b2 shapeCasts_S16_S1x16) (t : Fin cfg3.N) :
    (dat3 V c).flushed 5 t = ((cfg3.win 5).blk t).view.read (Elt Ideal)
      (Cert.ReferenceIdeal.Net.headOf (F := Ideal) (V c main_v69) (V c main_arg6) b1 (V c main_arg8) b2) := by
  obtain ⟨-, -, -, -, -, -, -, -, -, -, e0, e1⟩ := idx_facts3 t
  show (cfg3.win 5).cut (grid3.coords t) ((dat3 V c).after 5 t) = _
  rw [after3_5]
  unfold out3_5
  rw [View.canon_unit_zero hz2]
  simp only [View.ld_unit_zero (S := S128x128) hz2, View.ld_unit_zero (S := S1x128) hz2, View.ld_unit_zero (S := S128x16) hz2,
    View.ld_unit_zero (S := S1x16) hz2]
  funext j
  rw [View.read_apply]
  refine point3 V c b1 b2 hb1 hb2 t j _ ?_
  funext a
  apply Fin.ext
  match a with
  | ⟨0, _⟩ => show win3_5.index t (0 : Fin 2) * 128 + 1 * (j 0).val = (j 0).val; rw [e0]; omega
  | ⟨1, _⟩ => show win3_5.index t (1 : Fin 2) * 16 + 1 * (j 1).val = (j 1).val; rw [e1]; omega

/-- An index of the output array is in the point's block iff each coordinate is in the block's range on its axis. -/
theorem mem_blk3 (t : Fin cfg3.N) (i : S128x16.Idx) :
    i ∈ ((cfg3.win 5).blk t).view.set ↔ ∀ a : Fin 2, win3_5.index t a * S128x16.size a ≤ (i a).val ∧ (i a).val < win3_5.index t a * S128x16.size a + S128x16.size a := by
  show i ∈ ((View.whole main_v72).slice (win3_5.rect t)).set ↔ _
  rw [View.set_slice_whole, Rect.mem_set_unit]
  exact Iff.rfl

/-- The one block is the whole output. -/
theorem cover3 (i : S128x16.Idx) :
    ∃ t : Fin cfg3.N, (cfg3.win 5).flush t = true ∧ i ∈ ((cfg3.win 5).blk t).view.set := by
  have hi0 : (i 0).val < 128 := idx2_lt0 i
  have hi1 : (i 1).val < 16 := idx2_lt1 i
  refine ⟨t3_0, flush3_5 _, ?_⟩
  obtain ⟨-, -, -, -, -, -, -, -, -, -, e0, e1⟩ := idx_facts3 t3_0
  rw [mem_blk3]
  intro a
  match a with
  | ⟨0, _⟩ =>
    show win3_5.index t3_0 (0 : Fin 2) * 128 ≤ (i 0).val ∧ (i 0).val < win3_5.index t3_0 (0 : Fin 2) * 128 + 128
    rw [e0]; omega
  | ⟨1, _⟩ =>
    show win3_5.index t3_0 (1 : Fin 2) * 16 ≤ (i 1).val ∧ (i 1).val < win3_5.index t3_0 (1 : Fin 2) * 16 + 16
    rw [e1]; omega

/-- THE OUTPUT ARRAY after the launch is the head of the arrays the launch found. -/
theorem final3 (c : Dev nD) (b1 : (⟨Cert.ReferenceIdeal.S128, .f32⟩ : BufTy).Contents (Elt Ideal))
    (b2 : (⟨Cert.ReferenceIdeal.S16, .f32⟩ : BufTy).Contents (Elt Ideal))
    (hb1 : (V c main_v70 : S1x128.Idx → EReal) = shapeCast S1x128 b1 shapeCasts_S128_S1x128)
    (hb2 : (V c main_v71 : S1x16.Idx → EReal) = shapeCast S1x16 b2 shapeCasts_S16_S1x16) :
    (dat3 V c).arrAt 5 cfg3.N
      = Cert.ReferenceIdeal.Net.headOf (F := Ideal) (V c main_v69) (V c main_arg6) b1 (V c main_arg8) b2 :=
  (dat3 V c).arrAt_eq_of_cover 5 _ (fun t _ => flushed3_eq V c b1 b2 hb1 hb2 t) (fun i => cover3 i)

end Cert.KernelIdeal.Whole

end
-- ==== Proof.Fold.lean ====
/-
  The idealized kernel program's result as a function of its arguments.

  The program's buffers are followed through its eight segments — a stretch of host operations, a kernel launch, and so
  on four times. At each boundary the buffers that a later segment reads are written as closed functions of the ten
  launch arguments: after each host stretch by applying its operations (the edge rows and the index wrap, the
  gather / scatter-add of the neighbourhood sums, the slices of the stacked weights and biases, the pooling), after each
  launch by that launch's whole-array value. The buffers a segment does not write keep their contents. At the last
  boundary the result buffer holds `net` of the arguments: the same function the reference's run leaves.
-/
import proofs.«147184_j32839319945735_1_alg».proof.Proof.Gen.KernelIdeal.Frame
import proofs.«147184_j32839319945735_1_alg».proof.Proof.Net
import proofs.«147184_j32839319945735_1_alg».proof.Proof.Region0
import proofs.«147184_j32839319945735_1_alg».proof.Proof.Region1
import proofs.«147184_j32839319945735_1_alg».proof.Proof.Region2
import proofs.«147184_j32839319945735_1_alg».proof.Proof.Region3

set_option maxRecDepth 16384

noncomputable section

namespace Cert.KernelIdeal.Whole

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-! ## Entering the first launch: the edge rows, the first neighbourhood sums, layer 0's weights and bias row -/

theorem W1_v1 : (W1 m ρ c (Proc.devRef .tc main_v1) : (⟨S800000, .i32⟩ : BufTy).Contents (Elt Ideal)) = (Cert.ReferenceIdeal.Net.srcOf (m ((c : Thread nD τ).loc main_arg1))) := by
  show StableHlo.after hostOps0 (W0 m ρ c) (Proc.devRef .tc main_v1) = _
  dsimp only [hostOps0]
  after_results_simp
  rfl

theorem W1_v3 : (W1 m ρ c (Proc.devRef .tc main_v3) : (⟨S800000, .i32⟩ : BufTy).Contents (Elt Ideal)) = (Cert.ReferenceIdeal.Net.dstOf (m ((c : Thread nD τ).loc main_arg1))) := by
  show StableHlo.after hostOps0 (W0 m ρ c) (Proc.devRef .tc main_v3) = _
  dsimp only [hostOps0]
  after_results_simp
  rfl

theorem W1_v13 : (W1 m ρ c (Proc.devRef .tc main_v13) : (⟨S50000x128, .f32⟩ : BufTy).Contents (Elt Ideal)) = Cert.ReferenceIdeal.Net.aggOf (m ((c : Thread nD τ).loc main_arg0)) (Cert.ReferenceIdeal.Net.srcOf (m ((c : Thread nD τ).loc main_arg1))) (Cert.ReferenceIdeal.Net.dstOf (m ((c : Thread nD τ).loc main_arg1))) := by
  show StableHlo.after hostOps0 (W0 m ρ c) (Proc.devRef .tc main_v13) = _
  dsimp only [hostOps0]
  after_results_simp
  rfl

theorem W1_v16 : (W1 m ρ c (Proc.devRef .tc main_v16) : (⟨S1x128, .f32⟩ : BufTy).Contents (Elt Ideal)) = (shapeCast S1x128 (Cert.ReferenceIdeal.Net.bias0 (m ((c : Thread nD τ).loc main_arg4))) shapeCasts_S128_S1x128) := by
  show StableHlo.after hostOps0 (W0 m ρ c) (Proc.devRef .tc main_v16) = _
  dsimp only [hostOps0]
  after_results_simp
  rfl

theorem W1_v18 : (W1 m ρ c (Proc.devRef .tc main_v18) : (⟨S128x128, .f32⟩ : BufTy).Contents (Elt Ideal)) = Cert.ReferenceIdeal.Net.slab0 (m ((c : Thread nD τ).loc main_arg3)) := by
  show StableHlo.after hostOps0 (W0 m ρ c) (Proc.devRef .tc main_v18) = _
  dsimp only [hostOps0]
  after_results_simp
  rfl

theorem W1_v20 : (W1 m ρ c (Proc.devRef .tc main_v20) : (⟨S128x128, .f32⟩ : BufTy).Contents (Elt Ideal)) = Cert.ReferenceIdeal.Net.slab0 (m ((c : Thread nD τ).loc main_arg5)) := by
  show StableHlo.after hostOps0 (W0 m ρ c) (Proc.devRef .tc main_v20) = _
  dsimp only [hostOps0]
  after_results_simp
  rfl

theorem W1_arg0 : (W1 m ρ c (Proc.devRef .tc main_arg0) : (⟨S50000x128, .f32⟩ : BufTy).Contents (Elt Ideal)) = (m ((c : Thread nD τ).loc main_arg0)) := by
  show StableHlo.after hostOps0 (W0 m ρ c) (Proc.devRef .tc main_arg0) = _
  dsimp only [hostOps0]
  after_results_simp <;> rfl

theorem W1_arg2 : (W1 m ρ c (Proc.devRef .tc main_arg2) : (⟨S50000, .i32⟩ : BufTy).Contents (Elt Ideal)) = (m ((c : Thread nD τ).loc main_arg2)) := by
  show StableHlo.after hostOps0 (W0 m ρ c) (Proc.devRef .tc main_arg2) = _
  dsimp only [hostOps0]
  after_results_simp <;> rfl

theorem W1_arg3 : (W1 m ρ c (Proc.devRef .tc main_arg3) : (⟨S3x128x128, .f32⟩ : BufTy).Contents (Elt Ideal)) = (m ((c : Thread nD τ).loc main_arg3)) := by
  show StableHlo.after hostOps0 (W0 m ρ c) (Proc.devRef .tc main_arg3) = _
  dsimp only [hostOps0]
  after_results_simp <;> rfl

theorem W1_arg4 : (W1 m ρ c (Proc.devRef .tc main_arg4) : (⟨S3x128, .f32⟩ : BufTy).Contents (Elt Ideal)) = (m ((c : Thread nD τ).loc main_arg4)) := by
  show StableHlo.after hostOps0 (W0 m ρ c) (Proc.devRef .tc main_arg4) = _
  dsimp only [hostOps0]
  after_results_simp <;> rfl

theorem W1_arg5 : (W1 m ρ c (Proc.devRef .tc main_arg5) : (⟨S3x128x128, .f32⟩ : BufTy).Contents (Elt Ideal)) = (m ((c : Thread nD τ).loc main_arg5)) := by
  show StableHlo.after hostOps0 (W0 m ρ c) (Proc.devRef .tc main_arg5) = _
  dsimp only [hostOps0]
  after_results_simp <;> rfl

theorem W1_arg6 : (W1 m ρ c (Proc.devRef .tc main_arg6) : (⟨S128x128, .f32⟩ : BufTy).Contents (Elt Ideal)) = (m ((c : Thread nD τ).loc main_arg6)) := by
  show StableHlo.after hostOps0 (W0 m ρ c) (Proc.devRef .tc main_arg6) = _
  dsimp only [hostOps0]
  after_results_simp <;> rfl

theorem W1_arg7 : (W1 m ρ c (Proc.devRef .tc main_arg7) : (⟨S128, .f32⟩ : BufTy).Contents (Elt Ideal)) = (m ((c : Thread nD τ).loc main_arg7)) := by
  show StableHlo.after hostOps0 (W0 m ρ c) (Proc.devRef .tc main_arg7) = _
  dsimp only [hostOps0]
  after_results_simp <;> rfl

theorem W1_arg8 : (W1 m ρ c (Proc.devRef .tc main_arg8) : (⟨S128x16, .f32⟩ : BufTy).Contents (Elt Ideal)) = (m ((c : Thread nD τ).loc main_arg8)) := by
  show StableHlo.after hostOps0 (W0 m ρ c) (Proc.devRef .tc main_arg8) = _
  dsimp only [hostOps0]
  after_results_simp <;> rfl

theorem W1_arg9 : (W1 m ρ c (Proc.devRef .tc main_arg9) : (⟨S16, .f32⟩ : BufTy).Contents (Elt Ideal)) = (m ((c : Thread nD τ).loc main_arg9)) := by
  show StableHlo.after hostOps0 (W0 m ρ c) (Proc.devRef .tc main_arg9) = _
  dsimp only [hostOps0]
  after_results_simp <;> rfl

/-! ## Leaving the first launch: the features after one update -/

theorem W2_v21 : (W2 m ρ c (Proc.devRef .tc main_v21) : (⟨S50000x128, .f32⟩ : BufTy).Contents (Elt Ideal)) = (Cert.ReferenceIdeal.Net.feat1 (m ((c : Thread nD τ).loc main_arg0)) (m ((c : Thread nD τ).loc main_arg1)) (m ((c : Thread nD τ).loc main_arg3)) (m ((c : Thread nD τ).loc main_arg4)) (m ((c : Thread nD τ).loc main_arg5))) := by
  refine (W2_arr m ρ c 5).trans ?_
  refine (final0 (V1 m ρ) c (Cert.ReferenceIdeal.Net.bias0 (m ((c : Thread nD τ).loc main_arg4))) (W1_v16 m ρ c)).trans ?_
  show Cert.ReferenceIdeal.Net.updOf (F := Ideal) (W1 m ρ c (Proc.devRef .tc main_v13)) (W1 m ρ c (Proc.devRef .tc main_arg0))
      (W1 m ρ c (Proc.devRef .tc main_v18)) (Cert.ReferenceIdeal.Net.bias0 (m ((c : Thread nD τ).loc main_arg4))) (W1 m ρ c (Proc.devRef .tc main_v20)) = _
  rw [W1_v13 m ρ c, W1_arg0 m ρ c, W1_v18 m ρ c, W1_v20 m ρ c]
  rfl

theorem W2_v1 : (W2 m ρ c (Proc.devRef .tc main_v1) : (⟨S800000, .i32⟩ : BufTy).Contents (Elt Ideal)) = (Cert.ReferenceIdeal.Net.srcOf (m ((c : Thread nD τ).loc main_arg1))) :=
  (W2_of_ne m ρ c main_v1 (by decide)).trans (W1_v1 m ρ c)

theorem W2_v3 : (W2 m ρ c (Proc.devRef .tc main_v3) : (⟨S800000, .i32⟩ : BufTy).Contents (Elt Ideal)) = (Cert.ReferenceIdeal.Net.dstOf (m ((c : Thread nD τ).loc main_arg1))) :=
  (W2_of_ne m ρ c main_v3 (by decide)).trans (W1_v3 m ρ c)

theorem W2_arg2 : (W2 m ρ c (Proc.devRef .tc main_arg2) : (⟨S50000, .i32⟩ : BufTy).Contents (Elt Ideal)) = (m ((c : Thread nD τ).loc main_arg2)) :=
  (W2_of_ne m ρ c main_arg2 (by decide)).trans (W1_arg2 m ρ c)

theorem W2_arg3 : (W2 m ρ c (Proc.devRef .tc main_arg3) : (⟨S3x128x128, .f32⟩ : BufTy).Contents (Elt Ideal)) = (m ((c : Thread nD τ).loc main_arg3)) :=
  (W2_of_ne m ρ c main_arg3 (by decide)).trans (W1_arg3 m ρ c)

theorem W2_arg4 : (W2 m ρ c (Proc.devRef .tc main_arg4) : (⟨S3x128, .f32⟩ : BufTy).Contents (Elt Ideal)) = (m ((c : Thread nD τ).loc main_arg4)) :=
  (W2_of_ne m ρ c main_arg4 (by decide)).trans (W1_arg4 m ρ c)

theorem W2_arg5 : (W2 m ρ c (Proc.devRef .tc main_arg5) : (⟨S3x128x128, .f32⟩ : BufTy).Contents (Elt Ideal)) = (m ((c : Thread nD τ).loc main_arg5)) :=
  (W2_of_ne m ρ c main_arg5 (by decide)).trans (W1_arg5 m ρ c)

theorem W2_arg6 : (W2 m ρ c (Proc.devRef .tc main_arg6) : (⟨S128x128, .f32⟩ : BufTy).Contents (Elt Ideal)) = (m ((c : Thread nD τ).loc main_arg6)) :=
  (W2_of_ne m ρ c main_arg6 (by decide)).trans (W1_arg6 m ρ c)

theorem W2_arg7 : (W2 m ρ c (Proc.devRef .tc main_arg7) : (⟨S128, .f32⟩ : BufTy).Contents (Elt Ideal)) = (m ((c : Thread nD τ).loc main_arg7)) :=
  (W2_of_ne m ρ c main_arg7 (by decide)).trans (W1_arg7 m ρ c)

theorem W2_arg8 : (W2 m ρ c (Proc.devRef .tc main_arg8) : (⟨S128x16, .f32⟩ : BufTy).Contents (Elt Ideal)) = (m ((c : Thread nD τ).loc main_arg8)) :=
  (W2_of_ne m ρ c main_arg8 (by decide)).trans (W1_arg8 m ρ c)

theorem W2_arg9 : (W2 m ρ c (Proc.devRef .tc main_arg9) : (⟨S16, .f32⟩ : BufTy).Contents (Elt Ideal)) = (m ((c : Thread nD τ).loc main_arg9)) :=
  (W2_of_ne m ρ c main_arg9 (by decide)).trans (W1_arg9 m ρ c)

/-! ## Entering the second launch -/

theorem W3_v31 : (W3 m ρ c (Proc.devRef .tc main_v31) : (⟨S50000x128, .f32⟩ : BufTy).Contents (Elt Ideal)) = Cert.ReferenceIdeal.Net.aggOf (Cert.ReferenceIdeal.Net.feat1 (m ((c : Thread nD τ).loc main_arg0)) (m ((c : Thread nD τ).loc main_arg1)) (m ((c : Thread nD τ).loc main_arg3)) (m ((c : Thread nD τ).loc main_arg4)) (m ((c : Thread nD τ).loc main_arg5))) (Cert.ReferenceIdeal.Net.srcOf (m ((c : Thread nD τ).loc main_arg1))) (Cert.ReferenceIdeal.Net.dstOf (m ((c : Thread nD τ).loc main_arg1))) := by
  show StableHlo.after hostOps1 (W2 m ρ c) (Proc.devRef .tc main_v31) = _
  dsimp only [hostOps1]
  after_results_simp
  rw [W2_v3 m ρ c, W2_v21 m ρ c, W2_v1 m ρ c]
  rfl

theorem W3_v34 : (W3 m ρ c (Proc.devRef .tc main_v34) : (⟨S1x128, .f32⟩ : BufTy).Contents (Elt Ideal)) = (shapeCast S1x128 (Cert.ReferenceIdeal.Net.bias1 (m ((c : Thread nD τ).loc main_arg4))) shapeCasts_S128_S1x128) := by
  show StableHlo.after hostOps1 (W2 m ρ c) (Proc.devRef .tc main_v34) = _
  dsimp only [hostOps1]
  after_results_simp
  rw [W2_arg4 m ρ c]
  rfl

theorem W3_v36 : (W3 m ρ c (Proc.devRef .tc main_v36) : (⟨S128x128, .f32⟩ : BufTy).Contents (Elt Ideal)) = Cert.ReferenceIdeal.Net.slab1 (m ((c : Thread nD τ).loc main_arg3)) := by
  show StableHlo.after hostOps1 (W2 m ρ c) (Proc.devRef .tc main_v36) = _
  dsimp only [hostOps1]
  after_results_simp
  rw [W2_arg3 m ρ c]
  rfl

theorem W3_v38 : (W3 m ρ c (Proc.devRef .tc main_v38) : (⟨S128x128, .f32⟩ : BufTy).Contents (Elt Ideal)) = Cert.ReferenceIdeal.Net.slab1 (m ((c : Thread nD τ).loc main_arg5)) := by
  show StableHlo.after hostOps1 (W2 m ρ c) (Proc.devRef .tc main_v38) = _
  dsimp only [hostOps1]
  after_results_simp
  rw [W2_arg5 m ρ c]
  rfl

theorem W3_v21 : (W3 m ρ c (Proc.devRef .tc main_v21) : (⟨S50000x128, .f32⟩ : BufTy).Contents (Elt Ideal)) = (Cert.ReferenceIdeal.Net.feat1 (m ((c : Thread nD τ).loc main_arg0)) (m ((c : Thread nD τ).loc main_arg1)) (m ((c : Thread nD τ).loc main_arg3)) (m ((c : Thread nD τ).loc main_arg4)) (m ((c : Thread nD τ).loc main_arg5))) := by
  show StableHlo.after hostOps1 (W2 m ρ c) (Proc.devRef .tc main_v21) = _
  dsimp only [hostOps1]
  after_results_simp
  exact W2_v21 m ρ c

theorem W3_v1 : (W3 m ρ c (Proc.devRef .tc main_v1) : (⟨S800000, .i32⟩ : BufTy).Contents (Elt Ideal)) = (Cert.ReferenceIdeal.Net.srcOf (m ((c : Thread nD τ).loc main_arg1))) := by
  show StableHlo.after hostOps1 (W2 m ρ c) (Proc.devRef .tc main_v1) = _
  dsimp only [hostOps1]
  after_results_simp
  exact W2_v1 m ρ c

theorem W3_v3 : (W3 m ρ c (Proc.devRef .tc main_v3) : (⟨S800000, .i32⟩ : BufTy).Contents (Elt Ideal)) = (Cert.ReferenceIdeal.Net.dstOf (m ((c : Thread nD τ).loc main_arg1))) := by
  show StableHlo.after hostOps1 (W2 m ρ c) (Proc.devRef .tc main_v3) = _
  dsimp only [hostOps1]
  after_results_simp
  exact W2_v3 m ρ c

theorem W3_arg2 : (W3 m ρ c (Proc.devRef .tc main_arg2) : (⟨S50000, .i32⟩ : BufTy).Contents (Elt Ideal)) = (m ((c : Thread nD τ).loc main_arg2)) := by
  show StableHlo.after hostOps1 (W2 m ρ c) (Proc.devRef .tc main_arg2) = _
  dsimp only [hostOps1]
  after_results_simp
  exact W2_arg2 m ρ c

theorem W3_arg3 : (W3 m ρ c (Proc.devRef .tc main_arg3) : (⟨S3x128x128, .f32⟩ : BufTy).Contents (Elt Ideal)) = (m ((c : Thread nD τ).loc main_arg3)) := by
  show StableHlo.after hostOps1 (W2 m ρ c) (Proc.devRef .tc main_arg3) = _
  dsimp only [hostOps1]
  after_results_simp
  exact W2_arg3 m ρ c

theorem W3_arg4 : (W3 m ρ c (Proc.devRef .tc main_arg4) : (⟨S3x128, .f32⟩ : BufTy).Contents (Elt Ideal)) = (m ((c : Thread nD τ).loc main_arg4)) := by
  show StableHlo.after hostOps1 (W2 m ρ c) (Proc.devRef .tc main_arg4) = _
  dsimp only [hostOps1]
  after_results_simp
  exact W2_arg4 m ρ c

theorem W3_arg5 : (W3 m ρ c (Proc.devRef .tc main_arg5) : (⟨S3x128x128, .f32⟩ : BufTy).Contents (Elt Ideal)) = (m ((c : Thread nD τ).loc main_arg5)) := by
  show StableHlo.after hostOps1 (W2 m ρ c) (Proc.devRef .tc main_arg5) = _
  dsimp only [hostOps1]
  after_results_simp
  exact W2_arg5 m ρ c

theorem W3_arg6 : (W3 m ρ c (Proc.devRef .tc main_arg6) : (⟨S128x128, .f32⟩ : BufTy).Contents (Elt Ideal)) = (m ((c : Thread nD τ).loc main_arg6)) := by
  show StableHlo.after hostOps1 (W2 m ρ c) (Proc.devRef .tc main_arg6) = _
  dsimp only [hostOps1]
  after_results_simp
  exact W2_arg6 m ρ c

theorem W3_arg7 : (W3 m ρ c (Proc.devRef .tc main_arg7) : (⟨S128, .f32⟩ : BufTy).Contents (Elt Ideal)) = (m ((c : Thread nD τ).loc main_arg7)) := by
  show StableHlo.after hostOps1 (W2 m ρ c) (Proc.devRef .tc main_arg7) = _
  dsimp only [hostOps1]
  after_results_simp
  exact W2_arg7 m ρ c

theorem W3_arg8 : (W3 m ρ c (Proc.devRef .tc main_arg8) : (⟨S128x16, .f32⟩ : BufTy).Contents (Elt Ideal)) = (m ((c : Thread nD τ).loc main_arg8)) := by
  show StableHlo.after hostOps1 (W2 m ρ c) (Proc.devRef .tc main_arg8) = _
  dsimp only [hostOps1]
  after_results_simp
  exact W2_arg8 m ρ c

theorem W3_arg9 : (W3 m ρ c (Proc.devRef .tc main_arg9) : (⟨S16, .f32⟩ : BufTy).Contents (Elt Ideal)) = (m ((c : Thread nD τ).loc main_arg9)) := by
  show StableHlo.after hostOps1 (W2 m ρ c) (Proc.devRef .tc main_arg9) = _
  dsimp only [hostOps1]
  after_results_simp
  exact W2_arg9 m ρ c

/-! ## Leaving the second launch: the features after two updates -/

theorem W4_v39 : (W4 m ρ c (Proc.devRef .tc main_v39) : (⟨S50000x128, .f32⟩ : BufTy).Contents (Elt Ideal)) = (Cert.ReferenceIdeal.Net.feat2 (m ((c : Thread nD τ).loc main_arg0)) (m ((c : Thread nD τ).loc main_arg1)) (m ((c : Thread nD τ).loc main_arg3)) (m ((c : Thread nD τ).loc main_arg4)) (m ((c : Thread nD τ).loc main_arg5))) := by
  refine (W4_arr m ρ c 5).trans ?_
  refine (final1 (V3 m ρ) c (Cert.ReferenceIdeal.Net.bias1 (m ((c : Thread nD τ).loc main_arg4))) (W3_v34 m ρ c)).trans ?_
  show Cert.ReferenceIdeal.Net.updOf (F := Ideal) (W3 m ρ c (Proc.devRef .tc main_v31)) (W3 m ρ c (Proc.devRef .tc main_v21))
      (W3 m ρ c (Proc.devRef .tc main_v36)) (Cert.ReferenceIdeal.Net.bias1 (m ((c : Thread nD τ).loc main_arg4))) (W3 m ρ c (Proc.devRef .tc main_v38)) = _
  rw [W3_v31 m ρ c, W3_v21 m ρ c, W3_v36 m ρ c, W3_v38 m ρ c]
  rfl

theorem W4_v1 : (W4 m ρ c (Proc.devRef .tc main_v1) : (⟨S800000, .i32⟩ : BufTy).Contents (Elt Ideal)) = (Cert.ReferenceIdeal.Net.srcOf (m ((c : Thread nD τ).loc main_arg1))) :=
  (W4_of_ne m ρ c main_v1 (by decide)).trans (W3_v1 m ρ c)

theorem W4_v3 : (W4 m ρ c (Proc.devRef .tc main_v3) : (⟨S800000, .i32⟩ : BufTy).Contents (Elt Ideal)) = (Cert.ReferenceIdeal.Net.dstOf (m ((c : Thread nD τ).loc main_arg1))) :=
  (W4_of_ne m ρ c main_v3 (by decide)).trans (W3_v3 m ρ c)

theorem W4_arg2 : (W4 m ρ c (Proc.devRef .tc main_arg2) : (⟨S50000, .i32⟩ : BufTy).Contents (Elt Ideal)) = (m ((c : Thread nD τ).loc main_arg2)) :=
  (W4_of_ne m ρ c main_arg2 (by decide)).trans (W3_arg2 m ρ c)

theorem W4_arg3 : (W4 m ρ c (Proc.devRef .tc main_arg3) : (⟨S3x128x128, .f32⟩ : BufTy).Contents (Elt Ideal)) = (m ((c : Thread nD τ).loc main_arg3)) :=
  (W4_of_ne m ρ c main_arg3 (by decide)).trans (W3_arg3 m ρ c)

theorem W4_arg4 : (W4 m ρ c (Proc.devRef .tc main_arg4) : (⟨S3x128, .f32⟩ : BufTy).Contents (Elt Ideal)) = (m ((c : Thread nD τ).loc main_arg4)) :=
  (W4_of_ne m ρ c main_arg4 (by decide)).trans (W3_arg4 m ρ c)

theorem W4_arg5 : (W4 m ρ c (Proc.devRef .tc main_arg5) : (⟨S3x128x128, .f32⟩ : BufTy).Contents (Elt Ideal)) = (m ((c : Thread nD τ).loc main_arg5)) :=
  (W4_of_ne m ρ c main_arg5 (by decide)).trans (W3_arg5 m ρ c)

theorem W4_arg6 : (W4 m ρ c (Proc.devRef .tc main_arg6) : (⟨S128x128, .f32⟩ : BufTy).Contents (Elt Ideal)) = (m ((c : Thread nD τ).loc main_arg6)) :=
  (W4_of_ne m ρ c main_arg6 (by decide)).trans (W3_arg6 m ρ c)

theorem W4_arg7 : (W4 m ρ c (Proc.devRef .tc main_arg7) : (⟨S128, .f32⟩ : BufTy).Contents (Elt Ideal)) = (m ((c : Thread nD τ).loc main_arg7)) :=
  (W4_of_ne m ρ c main_arg7 (by decide)).trans (W3_arg7 m ρ c)

theorem W4_arg8 : (W4 m ρ c (Proc.devRef .tc main_arg8) : (⟨S128x16, .f32⟩ : BufTy).Contents (Elt Ideal)) = (m ((c : Thread nD τ).loc main_arg8)) :=
  (W4_of_ne m ρ c main_arg8 (by decide)).trans (W3_arg8 m ρ c)

theorem W4_arg9 : (W4 m ρ c (Proc.devRef .tc main_arg9) : (⟨S16, .f32⟩ : BufTy).Contents (Elt Ideal)) = (m ((c : Thread nD τ).loc main_arg9)) :=
  (W4_of_ne m ρ c main_arg9 (by decide)).trans (W3_arg9 m ρ c)

/-! ## Entering the third launch -/

theorem W5_v49 : (W5 m ρ c (Proc.devRef .tc main_v49) : (⟨S50000x128, .f32⟩ : BufTy).Contents (Elt Ideal)) = Cert.ReferenceIdeal.Net.aggOf (Cert.ReferenceIdeal.Net.feat2 (m ((c : Thread nD τ).loc main_arg0)) (m ((c : Thread nD τ).loc main_arg1)) (m ((c : Thread nD τ).loc main_arg3)) (m ((c : Thread nD τ).loc main_arg4)) (m ((c : Thread nD τ).loc main_arg5))) (Cert.ReferenceIdeal.Net.srcOf (m ((c : Thread nD τ).loc main_arg1))) (Cert.ReferenceIdeal.Net.dstOf (m ((c : Thread nD τ).loc main_arg1))) := by
  show StableHlo.after hostOps2 (W4 m ρ c) (Proc.devRef .tc main_v49) = _
  dsimp only [hostOps2]
  after_results_simp
  rw [W4_v3 m ρ c, W4_v39 m ρ c, W4_v1 m ρ c]
  rfl

theorem W5_v52 : (W5 m ρ c (Proc.devRef .tc main_v52) : (⟨S1x128, .f32⟩ : BufTy).Contents (Elt Ideal)) = (shapeCast S1x128 (Cert.ReferenceIdeal.Net.bias2 (m ((c : Thread nD τ).loc main_arg4))) shapeCasts_S128_S1x128) := by
  show StableHlo.after hostOps2 (W4 m ρ c) (Proc.devRef .tc main_v52) = _
  dsimp only [hostOps2]
  after_results_simp
  rw [W4_arg4 m ρ c]
  rfl

theorem W5_v54 : (W5 m ρ c (Proc.devRef .tc main_v54) : (⟨S128x128, .f32⟩ : BufTy).Contents (Elt Ideal)) = Cert.ReferenceIdeal.Net.slab2 (m ((c : Thread nD τ).loc main_arg3)) := by
  show StableHlo.after hostOps2 (W4 m ρ c) (Proc.devRef .tc main_v54) = _
  dsimp only [hostOps2]
  after_results_simp
  rw [W4_arg3 m ρ c]
  rfl

theorem W5_v56 : (W5 m ρ c (Proc.devRef .tc main_v56) : (⟨S128x128, .f32⟩ : BufTy).Contents (Elt Ideal)) = Cert.ReferenceIdeal.Net.slab2 (m ((c : Thread nD τ).loc main_arg5)) := by
  show StableHlo.after hostOps2 (W4 m ρ c) (Proc.devRef .tc main_v56) = _
  dsimp only [hostOps2]
  after_results_simp
  rw [W4_arg5 m ρ c]
  rfl

theorem W5_v39 : (W5 m ρ c (Proc.devRef .tc main_v39) : (⟨S50000x128, .f32⟩ : BufTy).Contents (Elt Ideal)) = (Cert.ReferenceIdeal.Net.feat2 (m ((c : Thread nD τ).loc main_arg0)) (m ((c : Thread nD τ).loc main_arg1)) (m ((c : Thread nD τ).loc main_arg3)) (m ((c : Thread nD τ).loc main_arg4)) (m ((c : Thread nD τ).loc main_arg5))) := by
  show StableHlo.after hostOps2 (W4 m ρ c) (Proc.devRef .tc main_v39) = _
  dsimp only [hostOps2]
  after_results_simp
  exact W4_v39 m ρ c

theorem W5_arg2 : (W5 m ρ c (Proc.devRef .tc main_arg2) : (⟨S50000, .i32⟩ : BufTy).Contents (Elt Ideal)) = (m ((c : Thread nD τ).loc main_arg2)) := by
  show StableHlo.after hostOps2 (W4 m ρ c) (Proc.devRef .tc main_arg2) = _
  dsimp only [hostOps2]
  after_results_simp
  exact W4_arg2 m ρ c

theorem W5_arg6 : (W5 m ρ c (Proc.devRef .tc main_arg6) : (⟨S128x128, .f32⟩ : BufTy).Contents (Elt Ideal)) = (m ((c : Thread nD τ).loc main_arg6)) := by
  show StableHlo.after hostOps2 (W4 m ρ c) (Proc.devRef .tc main_arg6) = _
  dsimp only [hostOps2]
  after_results_simp
  exact W4_arg6 m ρ c

theorem W5_arg7 : (W5 m ρ c (Proc.devRef .tc main_arg7) : (⟨S128, .f32⟩ : BufTy).Contents (Elt Ideal)) = (m ((c : Thread nD τ).loc main_arg7)) := by
  show StableHlo.after hostOps2 (W4 m ρ c) (Proc.devRef .tc main_arg7) = _
  dsimp only [hostOps2]
  after_results_simp
  exact W4_arg7 m ρ c

theorem W5_arg8 : (W5 m ρ c (Proc.devRef .tc main_arg8) : (⟨S128x16, .f32⟩ : BufTy).Contents (Elt Ideal)) = (m ((c : Thread nD τ).loc main_arg8)) := by
  show StableHlo.after hostOps2 (W4 m ρ c) (Proc.devRef .tc main_arg8) = _
  dsimp only [hostOps2]
  after_results_simp
  exact W4_arg8 m ρ c

theorem W5_arg9 : (W5 m ρ c (Proc.devRef .tc main_arg9) : (⟨S16, .f32⟩ : BufTy).Contents (Elt Ideal)) = (m ((c : Thread nD τ).loc main_arg9)) := by
  show StableHlo.after hostOps2 (W4 m ρ c) (Proc.devRef .tc main_arg9) = _
  dsimp only [hostOps2]
  after_results_simp
  exact W4_arg9 m ρ c

/-! ## Leaving the third launch: the features after three updates -/

theorem W6_v57 : (W6 m ρ c (Proc.devRef .tc main_v57) : (⟨S50000x128, .f32⟩ : BufTy).Contents (Elt Ideal)) = (Cert.ReferenceIdeal.Net.feat3 (m ((c : Thread nD τ).loc main_arg0)) (m ((c : Thread nD τ).loc main_arg1)) (m ((c : Thread nD τ).loc main_arg3)) (m ((c : Thread nD τ).loc main_arg4)) (m ((c : Thread nD τ).loc main_arg5))) := by
  refine (W6_arr m ρ c 5).trans ?_
  refine (final2 (V5 m ρ) c (Cert.ReferenceIdeal.Net.bias2 (m ((c : Thread nD τ).loc main_arg4))) (W5_v52 m ρ c)).trans ?_
  show Cert.ReferenceIdeal.Net.updOf (F := Ideal) (W5 m ρ c (Proc.devRef .tc main_v49)) (W5 m ρ c (Proc.devRef .tc main_v39))
      (W5 m ρ c (Proc.devRef .tc main_v54)) (Cert.ReferenceIdeal.Net.bias2 (m ((c : Thread nD τ).loc main_arg4))) (W5 m ρ c (Proc.devRef .tc main_v56)) = _
  rw [W5_v49 m ρ c, W5_v39 m ρ c, W5_v54 m ρ c, W5_v56 m ρ c]
  rfl

theorem W6_arg2 : (W6 m ρ c (Proc.devRef .tc main_arg2) : (⟨S50000, .i32⟩ : BufTy).Contents (Elt Ideal)) = (m ((c : Thread nD τ).loc main_arg2)) :=
  (W6_of_ne m ρ c main_arg2 (by decide)).trans (W5_arg2 m ρ c)

theorem W6_arg6 : (W6 m ρ c (Proc.devRef .tc main_arg6) : (⟨S128x128, .f32⟩ : BufTy).Contents (Elt Ideal)) = (m ((c : Thread nD τ).loc main_arg6)) :=
  (W6_of_ne m ρ c main_arg6 (by decide)).trans (W5_arg6 m ρ c)

theorem W6_arg7 : (W6 m ρ c (Proc.devRef .tc main_arg7) : (⟨S128, .f32⟩ : BufTy).Contents (Elt Ideal)) = (m ((c : Thread nD τ).loc main_arg7)) :=
  (W6_of_ne m ρ c main_arg7 (by decide)).trans (W5_arg7 m ρ c)

theorem W6_arg8 : (W6 m ρ c (Proc.devRef .tc main_arg8) : (⟨S128x16, .f32⟩ : BufTy).Contents (Elt Ideal)) = (m ((c : Thread nD τ).loc main_arg8)) :=
  (W6_of_ne m ρ c main_arg8 (by decide)).trans (W5_arg8 m ρ c)

theorem W6_arg9 : (W6 m ρ c (Proc.devRef .tc main_arg9) : (⟨S16, .f32⟩ : BufTy).Contents (Elt Ideal)) = (m ((c : Thread nD τ).loc main_arg9)) :=
  (W6_of_ne m ρ c main_arg9 (by decide)).trans (W5_arg9 m ρ c)

/-! ## Entering the head's launch: the per-graph means and the two bias rows -/

theorem W7_v69 : (W7 m ρ c (Proc.devRef .tc main_v69) : (⟨S128x128, .f32⟩ : BufTy).Contents (Elt Ideal)) = Cert.ReferenceIdeal.Net.poolOf (Cert.ReferenceIdeal.Net.feat3 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg2)) := by
  show StableHlo.after hostOps3 (W6 m ρ c) (Proc.devRef .tc main_v69) = _
  dsimp only [hostOps3]
  after_results_simp
  rw [W6_v57 m ρ c, W6_arg2 m ρ c]
  rfl

theorem W7_v70 : (W7 m ρ c (Proc.devRef .tc main_v70) : (⟨S1x128, .f32⟩ : BufTy).Contents (Elt Ideal)) = shapeCast S1x128 (m ((c : Thread nD τ).loc main_arg7)) shapeCasts_S128_S1x128 := by
  show StableHlo.after hostOps3 (W6 m ρ c) (Proc.devRef .tc main_v70) = _
  dsimp only [hostOps3]
  after_results_simp
  rw [W6_arg7 m ρ c]
  rfl

theorem W7_v71 : (W7 m ρ c (Proc.devRef .tc main_v71) : (⟨S1x16, .f32⟩ : BufTy).Contents (Elt Ideal)) = shapeCast S1x16 (m ((c : Thread nD τ).loc main_arg9)) shapeCasts_S16_S1x16 := by
  show StableHlo.after hostOps3 (W6 m ρ c) (Proc.devRef .tc main_v71) = _
  dsimp only [hostOps3]
  after_results_simp
  rw [W6_arg9 m ρ c]
  rfl

theorem W7_arg6 : (W7 m ρ c (Proc.devRef .tc main_arg6) : (⟨S128x128, .f32⟩ : BufTy).Contents (Elt Ideal)) = (m ((c : Thread nD τ).loc main_arg6)) := by
  show StableHlo.after hostOps3 (W6 m ρ c) (Proc.devRef .tc main_arg6) = _
  dsimp only [hostOps3]
  after_results_simp
  exact W6_arg6 m ρ c

theorem W7_arg8 : (W7 m ρ c (Proc.devRef .tc main_arg8) : (⟨S128x16, .f32⟩ : BufTy).Contents (Elt Ideal)) = (m ((c : Thread nD τ).loc main_arg8)) := by
  show StableHlo.after hostOps3 (W6 m ρ c) (Proc.devRef .tc main_arg8) = _
  dsimp only [hostOps3]
  after_results_simp
  exact W6_arg8 m ρ c

/-! ## Leaving the head's launch: the result -/

/-- The result buffer at the last boundary is the network of the launch arguments. -/
theorem W8_result : (W8 m ρ c (Proc.devRef .tc main_v72) : (⟨S128x16, .f32⟩ : BufTy).Contents (Elt Ideal))
    = Cert.ReferenceIdeal.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W8_arr m ρ c 5).trans ?_
  refine (final3 (V7 m ρ) c (m ((c : Thread nD τ).loc main_arg7)) (m ((c : Thread nD τ).loc main_arg9)) (W7_v70 m ρ c) (W7_v71 m ρ c)).trans ?_
  show Cert.ReferenceIdeal.Net.headOf (F := Ideal) (W7 m ρ c (Proc.devRef .tc main_v69)) (W7 m ρ c (Proc.devRef .tc main_arg6)) (m ((c : Thread nD τ).loc main_arg7))
      (W7 m ρ c (Proc.devRef .tc main_arg8)) (m ((c : Thread nD τ).loc main_arg9)) = _
  rw [W7_v69 m ρ c, W7_arg6 m ρ c, W7_arg8 m ρ c]
  rfl

end Cert.KernelIdeal.Whole

end
-- ==== Proof.lean ====
/-
  The kernel program and its reference compute one function on the extended reals.

  Both are a three-layer graph convolution with a pooled two-layer head. A graph of 50000 nodes (128 features each) and
  800000 directed edges is updated three times,  h ← max (agg h · Wrel + brel + h · Wroot, 0),  where (agg h) row i is
  the sum of the rows h[src e] over the edges e ending at node i; the rows are then averaged per graph and sent through
  (p · W1 + b1) · W2 + b2.

  The two programs share, operation for operation, the edge-list gather and scatter-add that form `agg` and the
  per-graph averaging; those are carried as named functions (`aggOf`, `poolOf`) and never opened. They differ only in
  the dense pieces. The reference forms each update on all rows at once, adding the bias between the two products; the
  kernel program forms it in a pipelined launch over ten tiles of 5000 rows, adding the two products first and the bias
  row last, and forms the head in a launch of one tile. Read at a node and a feature, both are
  max (Σ_k agg (i, k) · Wrel (k, c) + brel c + Σ_k h (i, k) · Wroot (k, c), 0): the three terms are added in two orders,
  equal because addition of extended reals is commutative and associative (no finiteness is needed, so the
  precondition is not opened); a matrix-unit product into a zero accumulator and the host's product are the same sum
  over the inner axis; narrowing the operands to a shorter float format is the identity on the extended reals; and
  the ten tiles cover the 50000 rows. The head is the same sum of sums in one order on both sides.

  So the kernel program's run (its four launches and the host operations among them, followed buffer by buffer) and
  the reference's run both leave `net` of the ten arguments in their result, and leave the arguments as launched.
  The idealization rewrote no operation, so there is nothing to preserve beyond the program's own text.
-/
import proofs.«147184_j32839319945735_1_alg».proof.Defs
import proofs.«147184_j32839319945735_1_alg».proof.Proof.Gen.Kernel
import proofs.«147184_j32839319945735_1_alg».proof.Proof.Gen.Kernel.Skeleton
import proofs.«147184_j32839319945735_1_alg».proof.Proof.Gen.Kernel.Launch
import proofs.«147184_j32839319945735_1_alg».proof.Proof.Gen.Kernel.Points
import proofs.«147184_j32839319945735_1_alg».proof.Proof.Gen.Kernel.Frame
import proofs.«147184_j32839319945735_1_alg».proof.Proof.Gen.KernelIdeal
import proofs.«147184_j32839319945735_1_alg».proof.Proof.Gen.KernelIdeal.Skeleton
import proofs.«147184_j32839319945735_1_alg».proof.Proof.Gen.KernelIdeal.Launch
import proofs.«147184_j32839319945735_1_alg».proof.Proof.Gen.KernelIdeal.Points
import proofs.«147184_j32839319945735_1_alg».proof.Proof.Gen.KernelIdeal.Frame
import proofs.«147184_j32839319945735_1_alg».proof.Proof.Gen.ReferenceIdeal
import proofs.«147184_j32839319945735_1_alg».proof.Proof.Gen.Pre_finite_inputs
import proofs.«147184_j32839319945735_1_alg».proof.Proof.Gen.ReferenceIdeal.Run
import proofs.«147184_j32839319945735_1_alg».proof.Proof.Net
import proofs.«147184_j32839319945735_1_alg».proof.Proof.KernelRun
import proofs.«147184_j32839319945735_1_alg».proof.Proof.Fold
import Idealize.ShloMosaic.Adequacy
import Idealize.ShloMosaic.Init

noncomputable section

namespace Cert.Proof

open Idealize.ShloMosaic Idealize.SL.Sem

/-- The kernel program as printed runs to the end with its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs to the end with its arguments unchanged: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the ten arguments both programs end with the network of those arguments in their
    result: the kernel program by its run followed through its segments, the reference by its run's composed term. -/
theorem algebraic : Cert.algebraic_KernelIdeal_ReferenceIdeal := by
  intro m ρ m' ρ' _ hagree
  refine ⟨fun c => Cert.ReferenceIdeal.Net.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Whole.W8_result m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Net.res_eq_net, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
